-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 108
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S1700000x1, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S1700000x1, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x128, .f32⟩
  | .hbm, ⟨82, _⟩ => ⟨S1700000x128, .f32⟩
  | .hbm, ⟨83, _⟩ => ⟨S_, .f32⟩
  | .hbm, ⟨84, _⟩ => ⟨S100000x128, .f32⟩
  | .hbm, ⟨85, _⟩ => ⟨S1700000x1, .i32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x64, .f32⟩
  | .hbm, ⟨90, _⟩ => ⟨S1700000x1, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000x64, .f32⟩
  | .hbm, ⟨100, _⟩ => ⟨S1700000x64, .f32⟩
  | .hbm, ⟨101, _⟩ => ⟨S1700000x64, .f32⟩
  | .hbm, ⟨102, _⟩ => ⟨S_, .f32⟩
  | .hbm, ⟨103, _⟩ => ⟨S100000x64, .f32⟩
  | .hbm, ⟨104, _⟩ => ⟨S1700000x1, .i32⟩
  | .hbm, ⟨105, _⟩ => ⟨S100000x64, .f32⟩
  | .hbm, ⟨106, _⟩ => ⟨S1x64, .f32⟩
  | .hbm, ⟨107, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_c_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 132
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S1x1600000, .i32⟩
  | 10 => ⟨S1600000, .i32⟩
  | 11 => ⟨S1x1600000, .i32⟩
  | 12 => ⟨S1600000, .i32⟩
  | 13 => ⟨S100000, .i32⟩
  | 14 => ⟨S1700000, .i32⟩
  | 15 => ⟨S1700000, .i32⟩
  | 16 => ⟨S_, .f32⟩
  | 17 => ⟨S100000, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S1700000x1, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S1700000x1, .f32⟩
  | 76 => ⟨S_, .i32⟩
  | 77 => ⟨S1700000, .i32⟩
  | 78 => ⟨S1700000, .i1⟩
  | 79 => ⟨S_, .i32⟩
  | 80 => ⟨S1700000, .i32⟩
  | 81 => ⟨S1700000, .i32⟩
  | 82 => ⟨S1700000, .i32⟩
  | 83 => ⟨S1700000x1, .i32⟩
  | 84 => ⟨S1700000x128, .f32⟩
  | 85 => ⟨S1700000x128, .f32⟩
  | 86 => ⟨S1700000x128, .f32⟩
  | 87 => ⟨S_, .f32⟩
  | 88 => ⟨S100000x128, .f32⟩
  | 89 => ⟨S1700000x1, .i32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x64, .f32⟩
  | 98 => ⟨S1700000x1, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000x64, .f32⟩
  | 108 => ⟨S1700000x64, .f32⟩
  | 109 => ⟨S1700000x64, .f32⟩
  | 110 => ⟨S_, .f32⟩
  | 111 => ⟨S100000x64, .f32⟩
  | 112 => ⟨S1700000x1, .i32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S100000, .f32⟩
  | 119 => ⟨S_, .f32⟩
  | 120 => ⟨S100000, .f32⟩
  | 121 => ⟨S100000, .f32⟩
  | 122 => ⟨S100000x1, .f32⟩
  | 123 => ⟨S100000x64, .f32⟩
  | 124 => ⟨S100000x64, .f32⟩
  | 125 => ⟨S100000x64, .f32⟩
  | 126 => ⟨S_, .f32⟩
  | 127 => ⟨S100000, .f32⟩
  | _ => ⟨S100000x128, .f32⟩

abbrev hbmTy0_1 (i : Nat) : BufTy := match i % 128 with
  | 0 => ⟨S100000x1, .f32⟩
  | 1 => ⟨S100000x1, .f32⟩
  | 2 => ⟨S100000x64, .f32⟩
  | 3 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_c_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_12 : Ref sig .tc := ⟨.hbm, 99, rfl⟩
abbrev main_v70 : Ref sig .tc := ⟨.hbm, 100, rfl⟩
abbrev main_v71 : Ref sig .tc := ⟨.hbm, 101, rfl⟩
abbrev main_c_13 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_14 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call3_cst : Ref sig .tc := ⟨.hbm, 117, rfl⟩
abbrev main_call3_v0 : Ref sig .tc := ⟨.hbm, 118, rfl⟩
abbrev main_call3_cst_0 : Ref sig .tc := ⟨.hbm, 119, rfl⟩
abbrev main_call3_v1 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_v5 : Ref sig .tc := ⟨.hbm, 124, rfl⟩
abbrev main_call3_v6 : Ref sig .tc := ⟨.hbm, 125, rfl⟩
abbrev main_call3_cst_1 : Ref sig .tc := ⟨.hbm, 126, rfl⟩
abbrev main_call3_v7 : Ref sig .tc := ⟨.hbm, 127, rfl⟩
abbrev main_call3_v8 : Ref sig .tc := ⟨.hbm, 128, rfl⟩
abbrev main_call3_v9 : Ref sig .tc := ⟨.hbm, 129, rfl⟩
abbrev main_call3_v10 : Ref sig .tc := ⟨.hbm, 130, rfl⟩
abbrev main_v85 : Ref sig .tc := ⟨.hbm, 131, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.RefFrame.lean ====
/-
  No operation of the reference writes one of its nine arguments: the fold of all 123 operations over any contents
  leaves each argument's buffer as it was, so after the run the arguments are as launched.
-/
import proofs.«171147_j55516747268431_1_alg».proof.Proof.RefRun
import Idealize.ShloMosaic.Lib.StableHlo.Run
import Idealize.ShloMosaic.PureOps.Ideal

noncomputable section

namespace Cert.RefFrame

open Idealize.ShloMosaic Idealize.ShloMosaic.TcCoe Idealize.SL.Sem Idealize.ShloMosaic.StableHlo

abbrev RV := Valuation Cert.ReferenceIdeal.τ Cert.ReferenceIdeal.sig (Elt Ideal)

theorem kept_arg0 (V : RV) :
    after (Cert.ReferenceIdeal.ValueP.ops (F := Ideal)) V (Proc.devRef .tc Cert.ReferenceIdeal.main_arg0) = V (Proc.devRef .tc Cert.ReferenceIdeal.main_arg0) := by
  after_results_simp

theorem kept_arg1 (V : RV) :
    after (Cert.ReferenceIdeal.ValueP.ops (F := Ideal)) V (Proc.devRef .tc Cert.ReferenceIdeal.main_arg1) = V (Proc.devRef .tc Cert.ReferenceIdeal.main_arg1) := by
  after_results_simp

theorem kept_arg2 (V : RV) :
    after (Cert.ReferenceIdeal.ValueP.ops (F := Ideal)) V (Proc.devRef .tc Cert.ReferenceIdeal.main_arg2) = V (Proc.devRef .tc Cert.ReferenceIdeal.main_arg2) := by
  after_results_simp

theorem kept_arg3 (V : RV) :
    after (Cert.ReferenceIdeal.ValueP.ops (F := Ideal)) V (Proc.devRef .tc Cert.ReferenceIdeal.main_arg3) = V (Proc.devRef .tc Cert.ReferenceIdeal.main_arg3) := by
  after_results_simp

theorem kept_arg4 (V : RV) :
    after (Cert.ReferenceIdeal.ValueP.ops (F := Ideal)) V (Proc.devRef .tc Cert.ReferenceIdeal.main_arg4) = V (Proc.devRef .tc Cert.ReferenceIdeal.main_arg4) := by
  after_results_simp

theorem kept_arg5 (V : RV) :
    after (Cert.ReferenceIdeal.ValueP.ops (F := Ideal)) V (Proc.devRef .tc Cert.ReferenceIdeal.main_arg5) = V (Proc.devRef .tc Cert.ReferenceIdeal.main_arg5) := by
  after_results_simp

theorem kept_arg6 (V : RV) :
    after (Cert.ReferenceIdeal.ValueP.ops (F := Ideal)) V (Proc.devRef .tc Cert.ReferenceIdeal.main_arg6) = V (Proc.devRef .tc Cert.ReferenceIdeal.main_arg6) := by
  after_results_simp

theorem kept_arg7 (V : RV) :
    after (Cert.ReferenceIdeal.ValueP.ops (F := Ideal)) V (Proc.devRef .tc Cert.ReferenceIdeal.main_arg7) = V (Proc.devRef .tc Cert.ReferenceIdeal.main_arg7) := by
  after_results_simp

theorem kept_arg8 (V : RV) :
    after (Cert.ReferenceIdeal.ValueP.ops (F := Ideal)) V (Proc.devRef .tc Cert.ReferenceIdeal.main_arg8) = V (Proc.devRef .tc Cert.ReferenceIdeal.main_arg8) := by
  after_results_simp

end Cert.RefFrame

end
-- ==== Proof.Fold.lean ====
/-
  Two folds side by side. Each program's @main is a list of host operations (the kernel's interrupted by its six grid
  regions), and what a buffer holds afterwards is a fold of the operations' results over the launch contents. The
  reference's 123 operations are cut here into ten consecutive stretches that line up with the kernel's segments:
  the normalisation of the edge weights (42 operations), then per layer the dense product (1), the gather / scale /
  scatter-add aggregation (16) and the bias with its activation (6, 6 and 18). Eight buffers live through all of it —
  the two self-looped edge lists, the normalised edge weights, and the five later arguments — and no operation after
  the normalisation writes any of them; `Same` says the two programs agree on them at a boundary, `KeptK` / `KeptR`
  that one program's stretch left them alone, and `Same.step` carries the agreement across a pair of stretches.
-/
import proofs.«171147_j55516747268431_1_alg».proof.Proof.Gen.KernelIdeal.Launch
import proofs.«171147_j55516747268431_1_alg».proof.Proof.RefRun
import Idealize.ShloMosaic.Lib.StableHlo.Run
import Idealize.ShloMosaic.PureOps.Ideal

noncomputable section

namespace Cert.Fold

open Idealize.ShloMosaic Idealize.ShloMosaic.TcCoe Idealize.SL.Sem Idealize.ShloMosaic.StableHlo

/-- Buffer contents of the idealized kernel's TensorCore, and of the idealized reference's. -/
abbrev KV := Valuation Cert.KernelIdeal.τ Cert.KernelIdeal.sig (Elt Ideal)
abbrev RV := Valuation Cert.ReferenceIdeal.τ Cert.ReferenceIdeal.sig (Elt Ideal)
abbrev ROp := HloOp Cert.ReferenceIdeal.τ Cert.ReferenceIdeal.sig (Elt Ideal)

/-- A fold over two lists in a row is the fold over the second of the fold over the first. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_append l₁ l₂]

/-- Cutting a list after its first n operations. -/
theorem after_split {τ : Topo} {sig : RefSig} {Val : EltTy → Type} (n : Nat) (l : List (HloOp τ sig Val))
    (V : Valuation τ sig Val) : after l V = after (l.drop n) (after (l.take n) V) := by
  rw [← after_append, List.take_append_drop]

/-! ## The reference's stretches -/

abbrev t0 : List ROp := Cert.ReferenceIdeal.ValueP.ops (F := Ideal)
/-- The normalised edge weights and the two self-looped edge lists. -/
abbrev prep : List ROp := t0.take 42
abbrev t1 : List ROp := t0.drop 42
abbrev dense1 : List ROp := t1.take 1
abbrev t2 : List ROp := t1.drop 1
abbrev agg1 : List ROp := t2.take 16
abbrev t3 : List ROp := t2.drop 16
abbrev act1 : List ROp := t3.take 6
abbrev t4 : List ROp := t3.drop 6
abbrev dense2 : List ROp := t4.take 1
abbrev t5 : List ROp := t4.drop 1
abbrev agg2 : List ROp := t5.take 16
abbrev t6 : List ROp := t5.drop 16
abbrev act2 : List ROp := t6.take 6
abbrev t7 : List ROp := t6.drop 6
abbrev dense3 : List ROp := t7.take 1
abbrev t8 : List ROp := t7.drop 1
abbrev agg3 : List ROp := t8.take 16
abbrev act3 : List ROp := t8.drop 16

/-- The reference's whole fold is the ten stretches' folds in a row. -/
theorem after_ops (V : RV) :
    after t0 V = after act3 (after agg3 (after dense3 (after act2 (after agg2 (after dense2 (after act1 (after agg1
      (after dense1 (after prep V))))))))) := by
  rw [after_split 42 t0, after_split 1 t1, after_split 16 t2, after_split 6 t3, after_split 1 t4, after_split 16 t5,
    after_split 6 t6, after_split 1 t7, after_split 16 t8]

/-! ## The long-lived buffers -/

/-- The two programs agree on the eight long-lived buffers. -/
structure Same (V : KV) (V' : RV) : Prop where
  src : V (Proc.devRef .tc Cert.KernelIdeal.main_v5) = V' (Proc.devRef .tc Cert.ReferenceIdeal.main_v5)
  dst : V (Proc.devRef .tc Cert.KernelIdeal.main_v6) = V' (Proc.devRef .tc Cert.ReferenceIdeal.main_v6)
  wt : V (Proc.devRef .tc Cert.KernelIdeal.main_v31) = V' (Proc.devRef .tc Cert.ReferenceIdeal.main_v31)
  b1 : V (Proc.devRef .tc Cert.KernelIdeal.main_arg4) = V' (Proc.devRef .tc Cert.ReferenceIdeal.main_arg4)
  w2 : V (Proc.devRef .tc Cert.KernelIdeal.main_arg5) = V' (Proc.devRef .tc Cert.ReferenceIdeal.main_arg5)
  b2 : V (Proc.devRef .tc Cert.KernelIdeal.main_arg6) = V' (Proc.devRef .tc Cert.ReferenceIdeal.main_arg6)
  w3 : V (Proc.devRef .tc Cert.KernelIdeal.main_arg7) = V' (Proc.devRef .tc Cert.ReferenceIdeal.main_arg7)
  b3 : V (Proc.devRef .tc Cert.KernelIdeal.main_arg8) = V' (Proc.devRef .tc Cert.ReferenceIdeal.main_arg8)

/-- The kernel's contents W hold what V held on the eight long-lived buffers. -/
structure KeptK (V W : KV) : Prop where
  src : W (Proc.devRef .tc Cert.KernelIdeal.main_v5) = V (Proc.devRef .tc Cert.KernelIdeal.main_v5)
  dst : W (Proc.devRef .tc Cert.KernelIdeal.main_v6) = V (Proc.devRef .tc Cert.KernelIdeal.main_v6)
  wt : W (Proc.devRef .tc Cert.KernelIdeal.main_v31) = V (Proc.devRef .tc Cert.KernelIdeal.main_v31)
  b1 : W (Proc.devRef .tc Cert.KernelIdeal.main_arg4) = V (Proc.devRef .tc Cert.KernelIdeal.main_arg4)
  w2 : W (Proc.devRef .tc Cert.KernelIdeal.main_arg5) = V (Proc.devRef .tc Cert.KernelIdeal.main_arg5)
  b2 : W (Proc.devRef .tc Cert.KernelIdeal.main_arg6) = V (Proc.devRef .tc Cert.KernelIdeal.main_arg6)
  w3 : W (Proc.devRef .tc Cert.KernelIdeal.main_arg7) = V (Proc.devRef .tc Cert.KernelIdeal.main_arg7)
  b3 : W (Proc.devRef .tc Cert.KernelIdeal.main_arg8) = V (Proc.devRef .tc Cert.KernelIdeal.main_arg8)

/-- The reference's contents W hold what V held on the eight long-lived buffers. -/
structure KeptR (V W : RV) : Prop where
  src : W (Proc.devRef .tc Cert.ReferenceIdeal.main_v5) = V (Proc.devRef .tc Cert.ReferenceIdeal.main_v5)
  dst : W (Proc.devRef .tc Cert.ReferenceIdeal.main_v6) = V (Proc.devRef .tc Cert.ReferenceIdeal.main_v6)
  wt : W (Proc.devRef .tc Cert.ReferenceIdeal.main_v31) = V (Proc.devRef .tc Cert.ReferenceIdeal.main_v31)
  b1 : W (Proc.devRef .tc Cert.ReferenceIdeal.main_arg4) = V (Proc.devRef .tc Cert.ReferenceIdeal.main_arg4)
  w2 : W (Proc.devRef .tc Cert.ReferenceIdeal.main_arg5) = V (Proc.devRef .tc Cert.ReferenceIdeal.main_arg5)
  b2 : W (Proc.devRef .tc Cert.ReferenceIdeal.main_arg6) = V (Proc.devRef .tc Cert.ReferenceIdeal.main_arg6)
  w3 : W (Proc.devRef .tc Cert.ReferenceIdeal.main_arg7) = V (Proc.devRef .tc Cert.ReferenceIdeal.main_arg7)
  b3 : W (Proc.devRef .tc Cert.ReferenceIdeal.main_arg8) = V (Proc.devRef .tc Cert.ReferenceIdeal.main_arg8)

/-- Agreement survives a pair of stretches that leave the long-lived buffers alone. -/
theorem Same.step {V W : KV} {V' W' : RV} (h : Same V V') (k : KeptK V W) (k' : KeptR V' W') : Same W W' :=
  ⟨k.src.trans (h.src.trans k'.src.symm), k.dst.trans (h.dst.trans k'.dst.symm), k.wt.trans (h.wt.trans k'.wt.symm),
   k.b1.trans (h.b1.trans k'.b1.symm), k.w2.trans (h.w2.trans k'.w2.symm), k.b2.trans (h.b2.trans k'.b2.symm),
   k.w3.trans (h.w3.trans k'.w3.symm), k.b3.trans (h.b3.trans k'.b3.symm)⟩

end Cert.Fold

end
-- ==== Proof.KeepsR.lean ====
/-
  No operation of the reference after the normalisation of the edge weights writes one of the eight long-lived
  buffers (each value is written once, and the arguments never): stretch by stretch, the fold over a stretch
  leaves them as they were.
-/
import proofs.«171147_j55516747268431_1_alg».proof.Proof.Fold

noncomputable section

namespace Cert.KeepsR

open Idealize.ShloMosaic Idealize.ShloMosaic.TcCoe Idealize.SL.Sem Idealize.ShloMosaic.StableHlo Cert.Fold

/-- Lay a stretch of the reference out as its literal list of operations. -/
local macro "stretch" : tactic => `(tactic| simp only [Cert.Fold.prep, Cert.Fold.dense1, Cert.Fold.agg1, Cert.Fold.act1, Cert.Fold.dense2, Cert.Fold.agg2, Cert.Fold.act2,
    Cert.Fold.dense3, Cert.Fold.agg3, Cert.Fold.act3, Cert.Fold.t0, Cert.Fold.t1, Cert.Fold.t2, Cert.Fold.t3, Cert.Fold.t4, Cert.Fold.t5,
    Cert.Fold.t6, Cert.Fold.t7, Cert.Fold.t8, Cert.ReferenceIdeal.ValueP.ops, List.take_succ_cons, List.take_zero, List.drop_succ_cons, List.drop_zero])

local macro "kept" : tactic => `(tactic| (stretch; after_results))

theorem dense1_kept (V : RV) : KeptR V (after dense1 V) :=
  ⟨by kept, by kept, by kept, by kept, by kept, by kept, by kept, by kept⟩

theorem agg1_kept (V : RV) : KeptR V (after agg1 V) :=
  ⟨by kept, by kept, by kept, by kept, by kept, by kept, by kept, by kept⟩

theorem act1_kept (V : RV) : KeptR V (after act1 V) :=
  ⟨by kept, by kept, by kept, by kept, by kept, by kept, by kept, by kept⟩

theorem dense2_kept (V : RV) : KeptR V (after dense2 V) :=
  ⟨by kept, by kept, by kept, by kept, by kept, by kept, by kept, by kept⟩

theorem agg2_kept (V : RV) : KeptR V (after agg2 V) :=
  ⟨by kept, by kept, by kept, by kept, by kept, by kept, by kept, by kept⟩

theorem act2_kept (V : RV) : KeptR V (after act2 V) :=
  ⟨by kept, by kept, by kept, by kept, by kept, by kept, by kept, by kept⟩

theorem dense3_kept (V : RV) : KeptR V (after dense3 V) :=
  ⟨by kept, by kept, by kept, by kept, by kept, by kept, by kept, by kept⟩

theorem agg3_kept (V : RV) : KeptR V (after agg3 V) :=
  ⟨by kept, by kept, by kept, by kept, by kept, by kept, by kept, by kept⟩

end Cert.KeepsR

end
-- ==== Proof.KeepsK.lean ====
/-
  Neither of the kernel's two aggregation stretches of host operations writes one of the eight long-lived buffers:
  the fold over the stretch leaves them as they were.
-/
import proofs.«171147_j55516747268431_1_alg».proof.Proof.Fold

noncomputable section

namespace Cert.KeepsK

open Idealize.ShloMosaic Idealize.ShloMosaic.TcCoe Idealize.SL.Sem Idealize.ShloMosaic.StableHlo Cert.Fold

theorem host1_kept (V : KV) : KeptK V (after (Cert.KernelIdeal.Gen.hostOps1 (F := Ideal)) V) :=
  ⟨by dsimp only [Cert.KernelIdeal.Gen.hostOps1]; after_results, by dsimp only [Cert.KernelIdeal.Gen.hostOps1]; after_results,
   by dsimp only [Cert.KernelIdeal.Gen.hostOps1]; after_results, by dsimp only [Cert.KernelIdeal.Gen.hostOps1]; after_results,
   by dsimp only [Cert.KernelIdeal.Gen.hostOps1]; after_results, by dsimp only [Cert.KernelIdeal.Gen.hostOps1]; after_results,
   by dsimp only [Cert.KernelIdeal.Gen.hostOps1]; after_results, by dsimp only [Cert.KernelIdeal.Gen.hostOps1]; after_results⟩

theorem host3_kept (V : KV) : KeptK V (after (Cert.KernelIdeal.Gen.hostOps3 (F := Ideal)) V) :=
  ⟨by dsimp only [Cert.KernelIdeal.Gen.hostOps3]; after_results, by dsimp only [Cert.KernelIdeal.Gen.hostOps3]; after_results,
   by dsimp only [Cert.KernelIdeal.Gen.hostOps3]; after_results, by dsimp only [Cert.KernelIdeal.Gen.hostOps3]; after_results,
   by dsimp only [Cert.KernelIdeal.Gen.hostOps3]; after_results, by dsimp only [Cert.KernelIdeal.Gen.hostOps3]; after_results,
   by dsimp only [Cert.KernelIdeal.Gen.hostOps3]; after_results, by dsimp only [Cert.KernelIdeal.Gen.hostOps3]; after_results⟩

end Cert.KeepsK

end
-- ==== Proof.Agg.lean ====
/-
  The aggregation of one layer — the edge weights laid as a column and broadcast over the features, the rows of the
  projected features gathered by the (wrapped) source indices, their product scatter-added into zeros by the
  destination indices — is the same list of host operations in both programs. Read at its result buffer, each side's
  fold over its stretch is one term of the projected features and the edge data it found; where those agree the two
  terms are one. Beside it the kernel re-lays the layer's bias vector as a row for the region that follows.
-/
import proofs.«171147_j55516747268431_1_alg».proof.Proof.Fold

noncomputable section

namespace Cert.Agg

open Idealize.ShloMosaic Idealize.ShloMosaic.TcCoe Idealize.SL.Sem Idealize.ShloMosaic.StableHlo Cert.Fold

/-- Lay a stretch of the reference out as its literal list of operations. -/
local macro "stretch" : tactic => `(tactic| simp only [Cert.Fold.prep, Cert.Fold.dense1, Cert.Fold.agg1, Cert.Fold.act1, Cert.Fold.dense2, Cert.Fold.agg2, Cert.Fold.act2,
    Cert.Fold.dense3, Cert.Fold.agg3, Cert.Fold.act3, Cert.Fold.t0, Cert.Fold.t1, Cert.Fold.t2, Cert.Fold.t3, Cert.Fold.t4, Cert.Fold.t5,
    Cert.Fold.t6, Cert.Fold.t7, Cert.Fold.t8, Cert.ReferenceIdeal.ValueP.ops, List.take_succ_cons, List.take_zero, List.drop_succ_cons, List.drop_zero])

/-- Layer 1's aggregation: from agreeing projected features and agreeing edge data, the two programs' scatter-added
    messages agree. -/
theorem agg1_eq (V : KV) (V' : RV)
    (hh : V (Proc.devRef .tc Cert.KernelIdeal.main_v32) = V' (Proc.devRef .tc Cert.ReferenceIdeal.main_v32)) (hs : Same V V') :
    after (Cert.KernelIdeal.Gen.hostOps1 (F := Ideal)) V (Proc.devRef .tc Cert.KernelIdeal.main_v45) = after agg1 V' (Proc.devRef .tc Cert.ReferenceIdeal.main_v45) := by
  dsimp only [Cert.KernelIdeal.Gen.hostOps1]
  stretch
  after_results_simp
  rw [hh, hs.wt, hs.src, hs.dst]
  rfl

/-- Layer 1's bias, as the kernel lays it out for its region: the argument vector re-laid as one row. -/
theorem bias1_read (V : KV) :
    after (Cert.KernelIdeal.Gen.hostOps1 (F := Ideal)) V (Proc.devRef .tc Cert.KernelIdeal.main_v46)
      = shapeCast Cert.KernelIdeal.S1x128 (V (Proc.devRef .tc Cert.KernelIdeal.main_arg4)) Cert.KernelIdeal.Gen.shapeCasts_S128_S1x128 := by
  dsimp only [Cert.KernelIdeal.Gen.hostOps1]
  after_results
  rfl

/-- Layer 2's aggregation: from agreeing projected features and agreeing edge data, the two programs' scatter-added
    messages agree. -/
theorem agg2_eq (V : KV) (V' : RV)
    (hh : V (Proc.devRef .tc Cert.KernelIdeal.main_v48) = V' (Proc.devRef .tc Cert.ReferenceIdeal.main_v50)) (hs : Same V V') :
    after (Cert.KernelIdeal.Gen.hostOps3 (F := Ideal)) V (Proc.devRef .tc Cert.KernelIdeal.main_v61) = after agg2 V' (Proc.devRef .tc Cert.ReferenceIdeal.main_v63) := by
  dsimp only [Cert.KernelIdeal.Gen.hostOps3]
  stretch
  after_results_simp
  rw [hh, hs.wt, hs.src, hs.dst]
  rfl

/-- Layer 2's bias, as the kernel lays it out for its region: the argument vector re-laid as one row. -/
theorem bias2_read (V : KV) :
    after (Cert.KernelIdeal.Gen.hostOps3 (F := Ideal)) V (Proc.devRef .tc Cert.KernelIdeal.main_v62)
      = shapeCast Cert.KernelIdeal.S1x128 (V (Proc.devRef .tc Cert.KernelIdeal.main_arg6)) Cert.KernelIdeal.Gen.shapeCasts_S128_S1x128 := by
  dsimp only [Cert.KernelIdeal.Gen.hostOps3]
  after_results
  rfl

/-- Layer 3's aggregation: from agreeing projected features and agreeing edge data, the two programs' scatter-added
    messages agree. -/
theorem agg3_eq (V : KV) (V' : RV)
    (hh : V (Proc.devRef .tc Cert.KernelIdeal.main_v64) = V' (Proc.devRef .tc Cert.ReferenceIdeal.main_v68)) (hs : Same V V') :
    after (Cert.KernelIdeal.Gen.hostOps5 (F := Ideal)) V (Proc.devRef .tc Cert.KernelIdeal.main_v77) = after agg3 V' (Proc.devRef .tc Cert.ReferenceIdeal.main_v81) := by
  dsimp only [Cert.KernelIdeal.Gen.hostOps5]
  stretch
  after_results_simp
  rw [hh, hs.wt, hs.src, hs.dst]
  rfl

/-- Layer 3's bias, as the kernel lays it out for its region: the argument vector re-laid as one row. -/
theorem bias3_read (V : KV) :
    after (Cert.KernelIdeal.Gen.hostOps5 (F := Ideal)) V (Proc.devRef .tc Cert.KernelIdeal.main_v78)
      = shapeCast Cert.KernelIdeal.S1x64 (V (Proc.devRef .tc Cert.KernelIdeal.main_arg8)) Cert.KernelIdeal.Gen.shapeCasts_S64_S1x64 := by
  dsimp only [Cert.KernelIdeal.Gen.hostOps5]
  after_results
  rfl

end Cert.Agg

end
-- ==== Proof.LibJoinTwo.lean ====
/-
  Two arrays joined along an axis, the two operands as plain arguments of one function (the list of shape-tagged
  pieces a concatenation takes hides them from a rewriter that goes argument by argument).
-/
import Idealize.ShloMosaic.PureOps.Ideal
import Idealize.ShloMosaic.Lib.Pipeline.Value

noncomputable section

namespace Cert.JoinTwo

open Idealize.ShloMosaic

/-- The concatenation of two pieces along axis a. -/
def cat2 {α : Type} (t s₁ s₂ : Shape) (a : Fin t.rank) (h : Shape.Concatenates [s₁, s₂] t a)
    (u : s₁.Idx → α) (v : s₂.Idx → α) : t.Idx → α :=
  concatenate t a [⟨s₁, u⟩, ⟨s₂, v⟩] h

/-- A two-piece concatenation is it. -/
theorem cat2_fold {α : Type} (t s₁ s₂ : Shape) (a : Fin t.rank) (h : Shape.Concatenates [s₁, s₂] t a)
    (u : s₁.Idx → α) (v : s₂.Idx → α) : concatenate t a [⟨s₁, u⟩, ⟨s₂, v⟩] h = cat2 t s₁ s₂ a h u v := rfl

end Cert.JoinTwo

end
-- ==== Proof.Prep.lean ====
/-
  The normalisation of the edge weights — the self-loops appended to the two index rows and to the weights, the
  degrees by a scatter-add, their inverse square roots where positive, the product of the two gathered inverse roots
  with the weight — is the same 42 host operations in both programs (the kernel's in three stretches). From launch
  contents that agree on the arguments, the two folds agree afterwards on the eight long-lived buffers, and neither
  has touched the first layer's two operands.
-/
import proofs.«171147_j55516747268431_1_alg».proof.Proof.Fold
import proofs.«171147_j55516747268431_1_alg».proof.Proof.LibJoinTwo

noncomputable section

namespace Cert.Prep

open Idealize.ShloMosaic Idealize.ShloMosaic.TcCoe Idealize.SL.Sem Idealize.ShloMosaic.StableHlo Cert.Fold

/-- Lay a stretch of the reference out as its literal list of operations. -/
local macro "stretch" : tactic => `(tactic| simp only [Cert.Fold.prep, Cert.Fold.dense1, Cert.Fold.agg1, Cert.Fold.act1, Cert.Fold.dense2, Cert.Fold.agg2, Cert.Fold.act2,
    Cert.Fold.dense3, Cert.Fold.agg3, Cert.Fold.act3, Cert.Fold.t0, Cert.Fold.t1, Cert.Fold.t2, Cert.Fold.t3, Cert.Fold.t4, Cert.Fold.t5,
    Cert.Fold.t6, Cert.Fold.t7, Cert.Fold.t8, Cert.ReferenceIdeal.ValueP.ops, List.take_succ_cons, List.take_zero, List.drop_succ_cons, List.drop_zero])

/-- Each operation's result read at its own buffer, every other buffer passed through, in one pass — with a two-piece
    concatenation first folded into a function of its two operands, so that the pass reaches them. -/
local macro "reads" : tactic => `(tactic| simp (disch := decide) only [Cert.JoinTwo.cat2_fold, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'])

/-- The kernel's three stretches before its first region, folded. -/
abbrev prepK (V : KV) : KV :=
  after (Cert.KernelIdeal.Gen.hostOps0_2 (F := Ideal)) (after (Cert.KernelIdeal.Gen.hostOps0_1 (F := Ideal)) (after (Cert.KernelIdeal.Gen.hostOps0 (F := Ideal)) V))

theorem prep_src (V : KV) (V' : RV)
    (h1 : V (Proc.devRef .tc Cert.KernelIdeal.main_arg1) = V' (Proc.devRef .tc Cert.ReferenceIdeal.main_arg1)) :
    prepK V (Proc.devRef .tc Cert.KernelIdeal.main_v5) = after prep V' (Proc.devRef .tc Cert.ReferenceIdeal.main_v5) := by
  dsimp only [prepK, Cert.KernelIdeal.Gen.hostOps0_2, Cert.KernelIdeal.Gen.hostOps0_1, Cert.KernelIdeal.Gen.hostOps0]
  stretch
  reads
  rw [h1]
  rfl
theorem prep_dst (V : KV) (V' : RV)
    (h1 : V (Proc.devRef .tc Cert.KernelIdeal.main_arg1) = V' (Proc.devRef .tc Cert.ReferenceIdeal.main_arg1)) :
    prepK V (Proc.devRef .tc Cert.KernelIdeal.main_v6) = after prep V' (Proc.devRef .tc Cert.ReferenceIdeal.main_v6) := by
  dsimp only [prepK, Cert.KernelIdeal.Gen.hostOps0_2, Cert.KernelIdeal.Gen.hostOps0_1, Cert.KernelIdeal.Gen.hostOps0]
  stretch
  reads
  rw [h1]
  rfl
set_option maxHeartbeats 4000000 in
theorem prep_wt (V : KV) (V' : RV)
    (h1 : V (Proc.devRef .tc Cert.KernelIdeal.main_arg1) = V' (Proc.devRef .tc Cert.ReferenceIdeal.main_arg1))
    (h2 : V (Proc.devRef .tc Cert.KernelIdeal.main_arg2) = V' (Proc.devRef .tc Cert.ReferenceIdeal.main_arg2)) :
    prepK V (Proc.devRef .tc Cert.KernelIdeal.main_v31) = after prep V' (Proc.devRef .tc Cert.ReferenceIdeal.main_v31) := by
  dsimp only [prepK, Cert.KernelIdeal.Gen.hostOps0_2, Cert.KernelIdeal.Gen.hostOps0_1, Cert.KernelIdeal.Gen.hostOps0]
  stretch
  reads
  rw [h1, h2]
  rfl
theorem prep_b1 (V : KV) (V' : RV)
    (h : V (Proc.devRef .tc Cert.KernelIdeal.main_arg4) = V' (Proc.devRef .tc Cert.ReferenceIdeal.main_arg4)) :
    prepK V (Proc.devRef .tc Cert.KernelIdeal.main_arg4) = after prep V' (Proc.devRef .tc Cert.ReferenceIdeal.main_arg4) := by
  dsimp only [prepK, Cert.KernelIdeal.Gen.hostOps0_2, Cert.KernelIdeal.Gen.hostOps0_1, Cert.KernelIdeal.Gen.hostOps0]
  stretch
  reads
  exact h
theorem prep_w2 (V : KV) (V' : RV)
    (h : V (Proc.devRef .tc Cert.KernelIdeal.main_arg5) = V' (Proc.devRef .tc Cert.ReferenceIdeal.main_arg5)) :
    prepK V (Proc.devRef .tc Cert.KernelIdeal.main_arg5) = after prep V' (Proc.devRef .tc Cert.ReferenceIdeal.main_arg5) := by
  dsimp only [prepK, Cert.KernelIdeal.Gen.hostOps0_2, Cert.KernelIdeal.Gen.hostOps0_1, Cert.KernelIdeal.Gen.hostOps0]
  stretch
  reads
  exact h
theorem prep_b2 (V : KV) (V' : RV)
    (h : V (Proc.devRef .tc Cert.KernelIdeal.main_arg6) = V' (Proc.devRef .tc Cert.ReferenceIdeal.main_arg6)) :
    prepK V (Proc.devRef .tc Cert.KernelIdeal.main_arg6) = after prep V' (Proc.devRef .tc Cert.ReferenceIdeal.main_arg6) := by
  dsimp only [prepK, Cert.KernelIdeal.Gen.hostOps0_2, Cert.KernelIdeal.Gen.hostOps0_1, Cert.KernelIdeal.Gen.hostOps0]
  stretch
  reads
  exact h
theorem prep_w3 (V : KV) (V' : RV)
    (h : V (Proc.devRef .tc Cert.KernelIdeal.main_arg7) = V' (Proc.devRef .tc Cert.ReferenceIdeal.main_arg7)) :
    prepK V (Proc.devRef .tc Cert.KernelIdeal.main_arg7) = after prep V' (Proc.devRef .tc Cert.ReferenceIdeal.main_arg7) := by
  dsimp only [prepK, Cert.KernelIdeal.Gen.hostOps0_2, Cert.KernelIdeal.Gen.hostOps0_1, Cert.KernelIdeal.Gen.hostOps0]
  stretch
  reads
  exact h
theorem prep_b3 (V : KV) (V' : RV)
    (h : V (Proc.devRef .tc Cert.KernelIdeal.main_arg8) = V' (Proc.devRef .tc Cert.ReferenceIdeal.main_arg8)) :
    prepK V (Proc.devRef .tc Cert.KernelIdeal.main_arg8) = after prep V' (Proc.devRef .tc Cert.ReferenceIdeal.main_arg8) := by
  dsimp only [prepK, Cert.KernelIdeal.Gen.hostOps0_2, Cert.KernelIdeal.Gen.hostOps0_1, Cert.KernelIdeal.Gen.hostOps0]
  stretch
  reads
  exact h

/-- After the normalisation the two folds agree on the eight long-lived buffers. -/
theorem prep_same (V : KV) (V' : RV)
    (h1 : V (Proc.devRef .tc Cert.KernelIdeal.main_arg1) = V' (Proc.devRef .tc Cert.ReferenceIdeal.main_arg1)) (h2 : V (Proc.devRef .tc Cert.KernelIdeal.main_arg2) = V' (Proc.devRef .tc Cert.ReferenceIdeal.main_arg2))
    (h4 : V (Proc.devRef .tc Cert.KernelIdeal.main_arg4) = V' (Proc.devRef .tc Cert.ReferenceIdeal.main_arg4)) (h5 : V (Proc.devRef .tc Cert.KernelIdeal.main_arg5) = V' (Proc.devRef .tc Cert.ReferenceIdeal.main_arg5))
    (h6 : V (Proc.devRef .tc Cert.KernelIdeal.main_arg6) = V' (Proc.devRef .tc Cert.ReferenceIdeal.main_arg6)) (h7 : V (Proc.devRef .tc Cert.KernelIdeal.main_arg7) = V' (Proc.devRef .tc Cert.ReferenceIdeal.main_arg7))
    (h8 : V (Proc.devRef .tc Cert.KernelIdeal.main_arg8) = V' (Proc.devRef .tc Cert.ReferenceIdeal.main_arg8)) :
    Same (prepK V) (after prep V') :=
  ⟨prep_src V V' h1, prep_dst V V' h1, prep_wt V V' h1 h2, prep_b1 V V' h4, prep_w2 V V' h5, prep_b2 V V' h6,
   prep_w3 V V' h7, prep_b3 V V' h8⟩

/-- The kernel's first three stretches leave the node features and the first table as launched. -/
theorem prepK_x (V : KV) : prepK V (Proc.devRef .tc Cert.KernelIdeal.main_arg0) = V (Proc.devRef .tc Cert.KernelIdeal.main_arg0) := by
  dsimp only [prepK, Cert.KernelIdeal.Gen.hostOps0_2, Cert.KernelIdeal.Gen.hostOps0_1, Cert.KernelIdeal.Gen.hostOps0]
  reads
theorem prepK_w (V : KV) : prepK V (Proc.devRef .tc Cert.KernelIdeal.main_arg3) = V (Proc.devRef .tc Cert.KernelIdeal.main_arg3) := by
  dsimp only [prepK, Cert.KernelIdeal.Gen.hostOps0_2, Cert.KernelIdeal.Gen.hostOps0_1, Cert.KernelIdeal.Gen.hostOps0]
  reads
/-- So does the reference's normalisation. -/
theorem prepR_x (V : RV) : after prep V (Proc.devRef .tc Cert.ReferenceIdeal.main_arg0) = V (Proc.devRef .tc Cert.ReferenceIdeal.main_arg0) := by
  stretch
  reads
theorem prepR_w (V : RV) : after prep V (Proc.devRef .tc Cert.ReferenceIdeal.main_arg3) = V (Proc.devRef .tc Cert.ReferenceIdeal.main_arg3) := by
  stretch
  reads

end Cert.Prep

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibHostLayout.lean ====
/-
  Two host re-layings read at one entry, over any sizes and any element type.

  * A matrix transposed: the result at (i, j) is the matrix at (j, i).
  * A vector of N entries laid as a row [1, N] and then down M rows, by two `broadcast_in_dim`s: the result at (r, c)
    is entry c.
  * A rank-zero value broadcast to a matrix: every entry is the value.
-/
import Idealize.ShloMosaic.Lib.Pipeline.Value
import Idealize.ShloMosaic.Lib.ValueIdx

noncomputable section

namespace Cert.HostLayout

open Idealize.ShloMosaic Idealize.ShloMosaic.ValueIdx

/-- A transposed matrix at (i, j) is the matrix at (j, i). -/
theorem transpose2_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h (ix2 i j) (ix2 j i) fun q => ?_
  match q with
  | ⟨0, _⟩ => rfl
  | ⟨1, _⟩ => rfl

/-- A vector laid as a row and then down M rows reads, at (r, c), entry c. -/
theorem biasRow_apply {α : Type} {M N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 v) (ix2 r c) = v (ix1 c) := by
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A rank-zero value broadcast to any shape reads the value everywhere. -/
theorem scalar_apply {α : Type} {t : Shape} (u : (⟨0, ![]⟩ : Shape).Idx → α)
    (h : (⟨0, ![]⟩ : Shape).BroadcastsInDim t ![]) (i : t.Idx) :
    broadcastInDim t ![] h u i = u (fun a => a.elim0) :=
  broadcastInDim_apply ![] h u i (fun a => a.elim0) (fun a => a.elim0)

end Cert.HostLayout

end
-- ==== Proof.LibBlockRows.lean ====
/-
  Picking rows out of a matrix, and the layers of a dense graph network read on the picked rows.

  A map ρ from the row numbers of a small matrix to the row numbers of a tall one lays rows ρ 0, ρ 1, … of the
  tall matrix as a matrix of its own (`rowsOf`). Every layer below acts on each row separately, so computing the
  layer on the picked rows gives the picked rows of the layer computed on the whole matrix:

  * a product with a fixed right factor, Σ_k A (r, k) · G (k, c): the matrix unit's product into a zero
    accumulator on the picked rows against the host's plain product on the whole;
  * a bias, one vector of N numbers added to every row: the vector laid as a row and broadcast down the picked
    rows against two host broadcasts down all rows;
  * the entry-by-entry operations (sum, product, maximum, exponential) and a constant splat.

  Everything is on the extended reals, where a change of float format is the identity, so an operand may first
  have been converted to a narrower format.
-/
import Idealize.ShloMosaic.PureOps.Ideal.Laws
import Idealize.ShloMosaic.Lib.Pipeline.Value
import Idealize.ShloMosaic.Lib.ValueIdx
import Idealize.ShloMosaic.Lib.ValueLayout
import proofs.«171147_j55516747268431_1_alg».proof.Proof.LibPlainMatmul
import proofs.«171147_j55516747268431_1_alg».proof.Proof.LibHostReads
import proofs.«171147_j55516747268431_1_alg».proof.Proof.LibHostLayout

noncomputable section

open scoped BigOperators

namespace Cert.BlockRows

open Idealize.ShloMosaic Idealize.ShloMosaic.ValueIdx

variable {TM M K N : Nat}

/-- Rows ρ 0, ρ 1, … of an M-row matrix, laid as a TM-row matrix. -/
def rowsOf {α : Type} (ρ : Fin TM → Fin M) (X : (⟨2, ![M, K]⟩ : Shape).Idx → α) : (⟨2, ![TM, K]⟩ : Shape).Idx → α :=
  fun j => X (ix2 (ρ (j 0)) (j 1))

/-- Entry (p, k) of the picked rows is entry (ρ p, k) of the matrix. -/
theorem rowsOf_apply {α : Type} (ρ : Fin TM → Fin M) (X : (⟨2, ![M, K]⟩ : Shape).Idx → α) (p : Fin TM) (k : Fin K) :
    rowsOf ρ X (ix2 p k) = X (ix2 (ρ p) k) := rfl

/-- Picking every row in place changes nothing. -/
theorem rowsOf_id {α : Type} (X : (⟨2, ![M, K]⟩ : Shape).Idx → α) : rowsOf (fun p : Fin M => p) X = X := by
  funext j
  exact congrArg X (eq_ix2 j).symm

/-- Row p of block t when M rows are cut into n blocks of TM rows each: row TM · t + p. -/
def blockRow (TM n M : Nat) (h : TM * n ≤ M) (t : Fin n) : Fin TM → Fin M := fun p =>
  ⟨TM * t.val + p.val, by
    have ht := t.isLt
    have hp := p.isLt
    calc TM * t.val + p.val < TM * t.val + TM := by omega
      _ = TM * (t.val + 1) := by rw [Nat.mul_succ]
      _ ≤ TM * n := Nat.mul_le_mul_left _ (by omega)
      _ ≤ M := h⟩

/-- Its row number. -/
theorem blockRow_val (TM n M : Nat) (h : TM * n ≤ M) (t : Fin n) (p : Fin TM) :
    (blockRow TM n M h t p).val = TM * t.val + p.val := rfl

/-- A sum of picked rows is the picked rows of the sum. -/
theorem addf_rows {φ : FTy} (ρ : Fin TM → Fin M) (X Y : FVec Ideal ⟨2, ![M, N]⟩ φ) :
    addf (rowsOf ρ X) (rowsOf ρ Y) = rowsOf ρ (addf X Y) := rfl

/-- A product, entry by entry, of picked rows is the picked rows of the product. -/
theorem mulf_rows {φ : FTy} (ρ : Fin TM → Fin M) (X Y : FVec Ideal ⟨2, ![M, N]⟩ φ) :
    mulf (rowsOf ρ X) (rowsOf ρ Y) = rowsOf ρ (mulf X Y) := rfl

/-- The exponential of picked rows is the picked rows of the host's exponential: one function on the extended reals. -/
theorem exp_rows {φ : FTy} (ρ : Fin TM → Fin M) (X : FVec Ideal ⟨2, ![M, N]⟩ φ) :
    exp (rowsOf ρ X) = rowsOf ρ (Host.exp X) := rfl

/-- The host's plain product of an M × K by a K × N matrix. -/
def propagate (A : FVec Ideal ⟨2, ![M, K]⟩ .f32) (G : FVec Ideal ⟨2, ![K, N]⟩ .f32) : FVec Ideal ⟨2, ![M, N]⟩ .f32 :=
  Host.dotGeneral (F := Ideal) (DotDims.plain M K N) none A G

/-- The host's dense layer: the plain product X · W plus the one row B added to every row. -/
def dense (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  addf (Host.dotGeneral (F := Ideal) (DotDims.plain M K N) none X W) (broadcastInDim ⟨2, ![M, N]⟩ ![0, 1] h2 B)

/-- The host's maximum with zero, the zero a rank-zero constant broadcast to the matrix. -/
def relu (h0 : (⟨0, ![]⟩ : Shape).BroadcastsInDim ⟨2, ![M, N]⟩ ![]) (Y : FVec Ideal ⟨2, ![M, N]⟩ .f32) :
    FVec Ideal ⟨2, ![M, N]⟩ .f32 :=
  maximumf Y (broadcastInDim ⟨2, ![M, N]⟩ ![] h0 (constant (F := Ideal) ⟨0, ![]⟩ .f32 0x00000000#32))

/-- The host's product with a constant, the constant of word `w` broadcast from rank zero. -/
def scaled (w : BitVec 32) (h0 : (⟨0, ![]⟩ : Shape).BroadcastsInDim ⟨2, ![M, N]⟩ ![]) (Y : FVec Ideal ⟨2, ![M, N]⟩ .f32) :
    FVec Ideal ⟨2, ![M, N]⟩ .f32 :=
  mulf (broadcastInDim ⟨2, ![M, N]⟩ ![] h0 (constant (F := Ideal) ⟨0, ![]⟩ .f32 w)) Y

/-- The product with a fixed right factor, row by row: when row p of `a` is row ρ p of `A` and `g` is `G`, the
    matrix unit's product of `a` and `g` into zeros is the picked rows of the host's product of `A` and `G`. -/
theorem matmul_rows (ρ : Fin TM → Fin M) {φ₁ φ₂ : FTy} (prec prec' : Option ContractPrecision)
    (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : ∀ (p : Fin TM) (k : Fin K), (a (ix2 p k) : EReal) = A (ix2 (ρ p) k))
    (hg : ∀ (k : Fin K) (n : Fin N), (g (ix2 k n) : EReal) = G (ix2 k n)) :
    matmul (DotDims.plain TM K N) prec a g (constant ⟨2, ![TM, N]⟩ .f32 0x00000000#32)
      = rowsOf ρ (Host.dotGeneral (F := Ideal) (DotDims.plain M K N) prec' A G) := by
  funext j
  obtain ⟨p, c, rfl⟩ : ∃ (p : Fin TM) (c : Fin N), j = ix2 p c := ⟨j 0, j 1, eq_ix2 j⟩
  rw [rowsOf_apply, Cert.LibHostReads.dotGeneral_plain_apply]
  refine (Cert.PlainMatmul.matmul_zero_apply TM K N prec a g p c).trans ?_
  exact Finset.sum_congr rfl fun k _ => congrArg₂ (· * ·) (ha p k) (hg k c)

/-- The propagation step on picked rows: the matrix unit's product, into zeros, of the picked rows of A and the
    whole of G — both first converted to a narrower float format, which changes nothing on the extended reals — is
    the picked rows of the host's product A · G. -/
theorem propagate_rows (ρ : Fin TM → Fin M) {ψ : FTy} (hψ : ψ.bits < FTy.f32.bits)
    (hs : (⟨2, ![K, N]⟩ : Shape).ShapeCasts ⟨2, ![K, N]⟩)
    (A : FVec Ideal ⟨2, ![M, K]⟩ .f32) (G : FVec Ideal ⟨2, ![K, N]⟩ .f32) :
    matmul (DotDims.plain TM K N) none (truncf ψ (rowsOf ρ A) hψ) (truncf ψ (shapeCast ⟨2, ![K, N]⟩ G hs) hψ)
        (constant ⟨2, ![TM, N]⟩ .f32 0x00000000#32)
      = rowsOf ρ (propagate A G) := by
  rw [shapeCast_self]
  exact matmul_rows ρ none none _ _ A G (fun _ _ => rfl) (fun _ _ => rfl)

/-- A dense layer on picked rows: the matrix unit's product of the picked rows of X and the whole of W into zeros,
    plus the row B broadcast down the picked rows, is the picked rows of the host's layer on X. -/
theorem dense_rows (ρ : Fin TM → Fin M)
    (hsw : (⟨2, ![K, N]⟩ : Shape).ShapeCasts ⟨2, ![K, N]⟩) (hs : (⟨2, ![1, N]⟩ : Shape).ShapeCasts ⟨2, ![1, N]⟩)
    (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    addf (matmul (DotDims.plain TM K N) none (rowsOf ρ X) (shapeCast ⟨2, ![K, N]⟩ W hsw)
          (constant ⟨2, ![TM, N]⟩ .f32 0x00000000#32))
        (broadcastTo ⟨2, ![TM, N]⟩ (shapeCast ⟨2, ![1, N]⟩ B hs) hb)
      = rowsOf ρ (dense h2 X W B) := by
  rw [shapeCast_self, shapeCast_self, matmul_rows ρ none none (rowsOf ρ X) W X W (fun _ _ => rfl) (fun _ _ => rfl)]
  unfold dense
  rw [← addf_rows]
  refine congrArg (addf (rowsOf ρ (Host.dotGeneral (F := Ideal) (DotDims.plain M K N) none X W))) ?_
  funext j
  obtain ⟨p, c, rfl⟩ : ∃ (p : Fin TM) (c : Fin N), j = ix2 p c := ⟨j 0, j 1, eq_ix2 j⟩
  rw [broadcastTo_1b_ab_apply, rowsOf_apply]
  refine (broadcastInDim_apply _ h2 B (ix2 (ρ p) c) (ix2 (0 : Fin 1) c) fun a => ?_).symm
  match a with
  | ⟨0, _⟩ => show (0 : Fin 1).val = if (1 : Nat) = 1 then 0 else (ρ p).val; rw [if_pos rfl]; rfl
  | ⟨1, _⟩ =>
    show c.val = if N = 1 then 0 else c.val
    split
    · have := c.isLt; omega
    · rfl

/-- A vector of N numbers reshaped to one row is the same vector broadcast into a row along its one axis. -/
theorem reshape_row {α : Type} (v : (⟨1, ![N]⟩ : Shape).Idx → α) (hs : (⟨1, ![N]⟩ : Shape).ShapeCasts ⟨2, ![1, N]⟩)
    (h1 : (⟨1, ![N]⟩ : Shape).BroadcastsInDim ⟨2, ![1, N]⟩ ![1]) :
    shapeCast ⟨2, ![1, N]⟩ v hs = broadcastInDim ⟨2, ![1, N]⟩ ![1] h1 v := by
  funext i
  obtain ⟨z, c, rfl⟩ : ∃ (z : Fin 1) (c : Fin N), i = ix2 z c := ⟨i 0, i 1, eq_ix2 i⟩
  have hz : z.val = 0 := by have := z.isLt; omega
  refine (shapeCast_apply v hs (ix2 z c) (ix1 c) ?_).trans (broadcastInDim_apply ![1] h1 v (ix2 z c) (ix1 c) fun a => ?_).symm
  · rewrite [Shape.rowMajor_val_two, Shape.rowMajor_val_one]
    show c.val = z.val * N + c.val
    rw [hz]; simp
  · match a with
    | ⟨0, _⟩ =>
      show c.val = if N = 1 then 0 else c.val
      split
      · have := c.isLt; omega
      · rfl

/-- A constant splat over TM rows is the picked rows of the same constant broadcast from rank zero over M rows. -/
theorem splat_rows (ρ : Fin TM → Fin M) (w : BitVec 32) (h : (⟨0, ![]⟩ : Shape).BroadcastsInDim ⟨2, ![M, N]⟩ ![]) :
    (broadcast ⟨2, ![TM, N]⟩ (Scalar.ofBits (F := Ideal) .f32 w) : FVec Ideal ⟨2, ![TM, N]⟩ .f32)
      = rowsOf ρ (broadcastInDim ⟨2, ![M, N]⟩ ![] h (constant (F := Ideal) ⟨0, ![]⟩ .f32 w)) := by
  funext j
  exact (Cert.HostLayout.scalar_apply (constant (F := Ideal) ⟨0, ![]⟩ .f32 w) h (ix2 (ρ (j 0)) (j 1))).symm

/-- The maximum with a splat zero of picked rows is the picked rows of the host's maximum with zero. -/
theorem relu_rows (ρ : Fin TM → Fin M) (h0 : (⟨0, ![]⟩ : Shape).BroadcastsInDim ⟨2, ![M, N]⟩ ![])
    (Y : FVec Ideal ⟨2, ![M, N]⟩ .f32) :
    maximumf (rowsOf ρ Y) (broadcast ⟨2, ![TM, N]⟩ (Scalar.ofBits (F := Ideal) .f32 0x00000000#32)) = rowsOf ρ (relu h0 Y) := by
  rw [splat_rows ρ 0x00000000#32 h0]; rfl

/-- The product of a splat constant with picked rows is the picked rows of the host's product with the constant. -/
theorem scaled_rows (ρ : Fin TM → Fin M) (w : BitVec 32) (h0 : (⟨0, ![]⟩ : Shape).BroadcastsInDim ⟨2, ![M, N]⟩ ![])
    (Y : FVec Ideal ⟨2, ![M, N]⟩ .f32) :
    mulf (broadcast ⟨2, ![TM, N]⟩ (Scalar.ofBits (F := Ideal) .f32 w)) (rowsOf ρ Y) = rowsOf ρ (scaled w h0 Y) := by
  rw [splat_rows ρ w h0]; rfl

end Cert.BlockRows

end
-- ==== Proof.Linear0.lean ====
/-
  The dense projection region number 0: a grid of 20 points, point t multiplying rows 5000·t … 5000·t + 4999 of a
  100000 × 128 array by one whole 128 × 128 table on the matrix unit into a zero accumulator, both operands first
  narrowed to bf16 (the identity on the extended reals). A row of a product depends on that row of the left factor
  only, so block t of the result is rows 5000·t … of the host's plain product of the whole array with the table; the
  20 blocks tile the 100000 rows, so after the region the result array IS that product, whatever the region found in
  its two input arrays.
-/
import proofs.«171147_j55516747268431_1_alg».proof.Proof.Gen.KernelIdeal.Frame
import proofs.«171147_j55516747268431_1_alg».proof.Proof.LibBlockRows
import Idealize.ShloMosaic.Lib.Pipeline.Value
import Idealize.ShloMosaic.Lib.ValueIdx

noncomputable section

namespace Cert.KernelIdeal.Lin0

open Cert.KernelIdeal Cert.KernelIdeal.Gen Idealize.ShloMosaic Idealize.ShloMosaic.TcCoe Idealize.SL.Sem
open Idealize.ShloMosaic.ValueIdx Idealize.ShloMosaic.Pipeline Cert.BlockRows

variable (V : (c : Dev nD) → (b : Ref sig .tc) → Buf (Elt Ideal) ((c : Thread nD τ).loc b))

/-- The host's plain product of the whole array with the table. -/
def product (X : FVec Ideal S100000x128 .f32) (T : FVec Ideal S128x128 .f32) : FVec Ideal S100000x128 .f32 :=
  Host.dotGeneral (F := Ideal) (DotDims.plain 100000 128 128) none X T

theorem origin : (![0, 0] : Fin 2 → Nat) = fun _ => 0 := funext fun a => by fin_cases a <;> rfl

/-- The rows of the tall array that grid point t works on. -/
abbrev rowsAt (t : Fin cfg0.N) : Fin 5000 → Fin 100000 := blockRow 5000 20 100000 (by decide) ⟨t.val, t.isLt⟩

/-- The body's arithmetic on picked rows is the picked rows of the whole product. -/
theorem payload_rows (ρ : Fin 5000 → Fin 100000) (X : FVec Ideal S100000x128 .f32) (T : FVec Ideal S128x128 .f32) :
    k0_pay1 (F := Ideal) (rowsOf ρ X) T = rowsOf ρ (product X T) := by
  unfold k0_pay1 product
  exact matmul_rows ρ none none _ _ X T (fun _ _ => rfl) (fun _ _ => rfl)

/-- The printed index maps over the grid: the row blocks move with the point, the table stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is the point's rows of its array. -/
theorem left_block (c : Dev nD) (t : Fin cfg0.N) :
    iblk0 V c 0 t = rowsOf (rowsAt t) (V c main_arg0) := by
  obtain ⟨e0, e1, -, -, -, -⟩ := index_facts t
  funext j
  show V c main_arg0 (((cfg0.win 0).blk t).view.emb j) = V c main_arg0 (ix2 (rowsAt t (j 0)) (j 1))
  refine congrArg (V c main_arg0) (funext fun a => Fin.ext ?_)
  match a with
  | ⟨0, _⟩ => show win0_0.index t (0 : Fin 2) * 5000 + 1 * (j 0).val = 5000 * t.val + (j 0).val; rw [e0]; ring
  | ⟨1, _⟩ => show win0_0.index t (1 : Fin 2) * 128 + 1 * (j 1).val = (j 1).val; rw [e1]; ring

/-- The table's block at every point is the whole table. -/
theorem table_block (c : Dev nD) (t : Fin cfg0.N) : iblk0 V c 1 t = V c main_arg3 := by
  obtain ⟨-, -, e2, e3, -, -⟩ := index_facts t
  funext j
  show V c main_arg3 (((cfg0.win 1).blk t).view.emb j) = V c main_arg3 j
  refine congrArg (V c main_arg3) (funext fun a => Fin.ext ?_)
  match a with
  | ⟨0, _⟩ => show win0_1.index t (0 : Fin 2) * 128 + 1 * (j 0).val = (j 0).val; rw [e2]; ring
  | ⟨1, _⟩ => show win0_1.index t (1 : Fin 2) * 128 + 1 * (j 1).val = (j 1).val; rw [e3]; ring

/-- Reading point t's block of a result-shaped array picks the point's rows. -/
theorem result_block (G : FVec Ideal S100000x128 .f32) (t : Fin cfg0.N) :
    ((cfg0.win 2).blk t).view.read (Elt Ideal) G = rowsOf (rowsAt t) G := by
  obtain ⟨-, -, -, -, e4, e5⟩ := index_facts t
  funext j
  show G (((cfg0.win 2).blk t).view.emb j) = G (ix2 (rowsAt t (j 0)) (j 1))
  refine congrArg G (funext fun a => Fin.ext ?_)
  match a with
  | ⟨0, _⟩ => show win0_2.index t (0 : Fin 2) * 5000 + 1 * (j 0).val = 5000 * t.val + (j 0).val; rw [e4]; ring
  | ⟨1, _⟩ => show win0_2.index t (1 : Fin 2) * 128 + 1 * (j 1).val = (j 1).val; rw [e5]; ring

/-- What point t writes back is its block of the whole product. -/
theorem flushed_eq (c : Dev nD) (t : Fin cfg0.N) :
    (dat0 V c).flushed 2 t
      = ((cfg0.win 2).blk t).view.read (Elt Ideal) (product (V c main_arg0) (V c main_arg3)) := by
  show (cfg0.win 2).cut (grid0.coords t) ((dat0 V c).after 2 t) = _
  rw [after0_2, result_block]
  unfold out0_2
  rw [View.canon_unit_zero origin]
  simp only [View.ld_unit_zero (S := S5000x128) origin, View.ld_unit_zero (S := S128x128) origin]
  rw [left_block, table_block]
  exact payload_rows _ _ _

/-- An index is in point t's block iff its row is among the point's 5000 rows. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every row lies in the block of the point numbered row / 5000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 5000, by show (i 0).val / 5000 < 20; omega⟩
  obtain ⟨-, -, -, -, e4, e5⟩ := index_facts t
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    rw [e4]; show (i 0).val / 5000 * 5000 ≤ (i 0).val ∧ (i 0).val < (i 0).val / 5000 * 5000 + 5000; omega
  | ⟨1, _⟩ =>
    show win0_2.index t (1 : Fin 2) * 128 ≤ (i 1).val ∧ (i 1).val < win0_2.index t (1 : Fin 2) * 128 + 128
    rw [e5]; omega

/-- THE RESULT ARRAY after the region: the host's product of the two arrays the region found. -/
theorem final (c : Dev nD) :
    (dat0 V c).arrAt 2 cfg0.N = product (V c main_arg0) (V c main_arg3) :=
  (dat0 V c).arrAt_eq_of_cover 2 (product (V c main_arg0) (V c main_arg3)) (fun t _ => flushed_eq V c t) covered

end Cert.KernelIdeal.Lin0

end
-- ==== Proof.Linear2.lean ====
/-
  The dense projection region number 2: a grid of 20 points, point t multiplying rows 5000·t … 5000·t + 4999 of a
  100000 × 128 array by one whole 128 × 128 table on the matrix unit into a zero accumulator, both operands first
  narrowed to bf16 (the identity on the extended reals). A row of a product depends on that row of the left factor
  only, so block t of the result is rows 5000·t … of the host's plain product of the whole array with the table; the
  20 blocks tile the 100000 rows, so after the region the result array IS that product, whatever the region found in
  its two input arrays.
-/
import proofs.«171147_j55516747268431_1_alg».proof.Proof.Gen.KernelIdeal.Frame
import proofs.«171147_j55516747268431_1_alg».proof.Proof.LibBlockRows
import Idealize.ShloMosaic.Lib.Pipeline.Value
import Idealize.ShloMosaic.Lib.ValueIdx

noncomputable section

namespace Cert.KernelIdeal.Lin2

open Cert.KernelIdeal Cert.KernelIdeal.Gen Idealize.ShloMosaic Idealize.ShloMosaic.TcCoe Idealize.SL.Sem
open Idealize.ShloMosaic.ValueIdx Idealize.ShloMosaic.Pipeline Cert.BlockRows

variable (V : (c : Dev nD) → (b : Ref sig .tc) → Buf (Elt Ideal) ((c : Thread nD τ).loc b))

/-- The host's plain product of the whole array with the table. -/
def product (X : FVec Ideal S100000x128 .f32) (T : FVec Ideal S128x128 .f32) : FVec Ideal S100000x128 .f32 :=
  Host.dotGeneral (F := Ideal) (DotDims.plain 100000 128 128) none X T

theorem origin : (![0, 0] : Fin 2 → Nat) = fun _ => 0 := funext fun a => by fin_cases a <;> rfl

/-- The rows of the tall array that grid point t works on. -/
abbrev rowsAt (t : Fin cfg2.N) : Fin 5000 → Fin 100000 := blockRow 5000 20 100000 (by decide) ⟨t.val, t.isLt⟩

/-- The body's arithmetic on picked rows is the picked rows of the whole product. -/
theorem payload_rows (ρ : Fin 5000 → Fin 100000) (X : FVec Ideal S100000x128 .f32) (T : FVec Ideal S128x128 .f32) :
    k2_pay1 (F := Ideal) (rowsOf ρ X) T = rowsOf ρ (product X T) := by
  unfold k2_pay1 product
  rw [shapeCast_self]
  exact matmul_rows ρ none none _ _ X T (fun _ _ => rfl) (fun _ _ => rfl)

/-- The printed index maps over the grid: the row blocks move with the point, the table stays. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t is the point's rows of its array. -/
theorem left_block (c : Dev nD) (t : Fin cfg2.N) :
    iblk2 V c 0 t = rowsOf (rowsAt t) (V c main_v47) := by
  obtain ⟨e0, e1, -, -, -, -⟩ := index_facts t
  funext j
  show V c main_v47 (((cfg2.win 0).blk t).view.emb j) = V c main_v47 (ix2 (rowsAt t (j 0)) (j 1))
  refine congrArg (V c main_v47) (funext fun a => Fin.ext ?_)
  match a with
  | ⟨0, _⟩ => show win2_0.index t (0 : Fin 2) * 5000 + 1 * (j 0).val = 5000 * t.val + (j 0).val; rw [e0]; ring
  | ⟨1, _⟩ => show win2_0.index t (1 : Fin 2) * 128 + 1 * (j 1).val = (j 1).val; rw [e1]; ring

/-- The table's block at every point is the whole table. -/
theorem table_block (c : Dev nD) (t : Fin cfg2.N) : iblk2 V c 1 t = V c main_arg5 := by
  obtain ⟨-, -, e2, e3, -, -⟩ := index_facts t
  funext j
  show V c main_arg5 (((cfg2.win 1).blk t).view.emb j) = V c main_arg5 j
  refine congrArg (V c main_arg5) (funext fun a => Fin.ext ?_)
  match a with
  | ⟨0, _⟩ => show win2_1.index t (0 : Fin 2) * 128 + 1 * (j 0).val = (j 0).val; rw [e2]; ring
  | ⟨1, _⟩ => show win2_1.index t (1 : Fin 2) * 128 + 1 * (j 1).val = (j 1).val; rw [e3]; ring

/-- Reading point t's block of a result-shaped array picks the point's rows. -/
theorem result_block (G : FVec Ideal S100000x128 .f32) (t : Fin cfg2.N) :
    ((cfg2.win 2).blk t).view.read (Elt Ideal) G = rowsOf (rowsAt t) G := by
  obtain ⟨-, -, -, -, e4, e5⟩ := index_facts t
  funext j
  show G (((cfg2.win 2).blk t).view.emb j) = G (ix2 (rowsAt t (j 0)) (j 1))
  refine congrArg G (funext fun a => Fin.ext ?_)
  match a with
  | ⟨0, _⟩ => show win2_2.index t (0 : Fin 2) * 5000 + 1 * (j 0).val = 5000 * t.val + (j 0).val; rw [e4]; ring
  | ⟨1, _⟩ => show win2_2.index t (1 : Fin 2) * 128 + 1 * (j 1).val = (j 1).val; rw [e5]; ring

/-- What point t writes back is its block of the whole product. -/
theorem flushed_eq (c : Dev nD) (t : Fin cfg2.N) :
    (dat2 V c).flushed 2 t
      = ((cfg2.win 2).blk t).view.read (Elt Ideal) (product (V c main_v47) (V c main_arg5)) := by
  show (cfg2.win 2).cut (grid2.coords t) ((dat2 V c).after 2 t) = _
  rw [after2_2, result_block]
  unfold out2_2
  rw [View.canon_unit_zero origin]
  simp only [View.ld_unit_zero (S := S5000x128) origin, View.ld_unit_zero (S := S128x128) origin]
  rw [left_block, table_block]
  exact payload_rows _ _ _

/-- An index is in point t's block iff its row is among the point's 5000 rows. -/
theorem mem_block (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- Every row lies in the block of the point numbered row / 5000. -/
theorem covered (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  let t : Fin cfg2.N := ⟨(i 0).val / 5000, by show (i 0).val / 5000 < 20; omega⟩
  obtain ⟨-, -, -, -, e4, e5⟩ := index_facts t
  refine ⟨t, flush2_2 t, ?_⟩
  rw [mem_block]
  intro a
  match a with
  | ⟨0, _⟩ =>
    show win2_2.index t (0 : Fin 2) * 5000 ≤ (i 0).val ∧ (i 0).val < win2_2.index t (0 : Fin 2) * 5000 + 5000
    rw [e4]; show (i 0).val / 5000 * 5000 ≤ (i 0).val ∧ (i 0).val < (i 0).val / 5000 * 5000 + 5000; omega
  | ⟨1, _⟩ =>
    show win2_2.index t (1 : Fin 2) * 128 ≤ (i 1).val ∧ (i 1).val < win2_2.index t (1 : Fin 2) * 128 + 128
    rw [e5]; omega

/-- THE RESULT ARRAY after the region: the host's product of the two arrays the region found. -/
theorem final (c : Dev nD) :
    (dat2 V c).arrAt 2 cfg2.N = product (V c main_v47) (V c main_arg5) :=
  (dat2 V c).arrAt_eq_of_cover 2 (product (V c main_v47) (V c main_arg5)) (fun t _ => flushed_eq V c t) covered

end Cert.KernelIdeal.Lin2

end
-- ==== Proof.Linear4.lean ====
/-
  The dense projection region number 4: a grid of 20 points, point t multiplying rows 5000·t … 5000·t + 4999 of a
  100000 × 128 array by one whole 128 × 64 table on the matrix unit into a zero accumulator, both operands first
  narrowed to bf16 (the identity on the extended reals). A row of a product depends on that row of the left factor
  only, so block t of the result is rows 5000·t … of the host's plain product of the whole array with the table; the
  20 blocks tile the 100000 rows, so after the region the result array IS that product, whatever the region found in
  its two input arrays.
-/
import proofs.«171147_j55516747268431_1_alg».proof.Proof.Gen.KernelIdeal.Frame
import proofs.«171147_j55516747268431_1_alg».proof.Proof.LibBlockRows
import Idealize.ShloMosaic.Lib.Pipeline.Value
import Idealize.ShloMosaic.Lib.ValueIdx

noncomputable section

namespace Cert.KernelIdeal.Lin4

open Cert.KernelIdeal Cert.KernelIdeal.Gen Idealize.ShloMosaic Idealize.ShloMosaic.TcCoe Idealize.SL.Sem
open Idealize.ShloMosaic.ValueIdx Idealize.ShloMosaic.Pipeline Cert.BlockRows

variable (V : (c : Dev nD) → (b : Ref sig .tc) → Buf (Elt Ideal) ((c : Thread nD τ).loc b))

/-- The host's plain product of the whole array with the table. -/
def product (X : FVec Ideal S100000x128 .f32) (T : FVec Ideal S128x64 .f32) : FVec Ideal S100000x64 .f32 :=
  Host.dotGeneral (F := Ideal) (DotDims.plain 100000 128 64) none X T

theorem origin : (![0, 0] : Fin 2 → Nat) = fun _ => 0 := funext fun a => by fin_cases a <;> rfl

/-- The rows of the tall array that grid point t works on. -/
abbrev rowsAt (t : Fin cfg4.N) : Fin 5000 → Fin 100000 := blockRow 5000 20 100000 (by decide) ⟨t.val, t.isLt⟩

/-- The body's arithmetic on picked rows is the picked rows of the whole product. -/
theorem payload_rows (ρ : Fin 5000 → Fin 100000) (X : FVec Ideal S100000x128 .f32) (T : FVec Ideal S128x64 .f32) :
    k4_pay1 (F := Ideal) (rowsOf ρ X) T = rowsOf ρ (product X T) := by
  unfold k4_pay1 product
  rw [shapeCast_self]
  exact matmul_rows ρ none none _ _ X T (fun _ _ => rfl) (fun _ _ => rfl)

/-- The printed index maps over the grid: the row blocks move with the point, the table stays. -/
theorem index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left operand's block at point t is the point's rows of its array. -/
theorem left_block (c : Dev nD) (t : Fin cfg4.N) :
    iblk4 V c 0 t = rowsOf (rowsAt t) (V c main_v63) := by
  obtain ⟨e0, e1, -, -, -, -⟩ := index_facts t
  funext j
  show V c main_v63 (((cfg4.win 0).blk t).view.emb j) = V c main_v63 (ix2 (rowsAt t (j 0)) (j 1))
  refine congrArg (V c main_v63) (funext fun a => Fin.ext ?_)
  match a with
  | ⟨0, _⟩ => show win4_0.index t (0 : Fin 2) * 5000 + 1 * (j 0).val = 5000 * t.val + (j 0).val; rw [e0]; ring
  | ⟨1, _⟩ => show win4_0.index t (1 : Fin 2) * 128 + 1 * (j 1).val = (j 1).val; rw [e1]; ring

/-- The table's block at every point is the whole table. -/
theorem table_block (c : Dev nD) (t : Fin cfg4.N) : iblk4 V c 1 t = V c main_arg7 := by
  obtain ⟨-, -, e2, e3, -, -⟩ := index_facts t
  funext j
  show V c main_arg7 (((cfg4.win 1).blk t).view.emb j) = V c main_arg7 j
  refine congrArg (V c main_arg7) (funext fun a => Fin.ext ?_)
  match a with
  | ⟨0, _⟩ => show win4_1.index t (0 : Fin 2) * 128 + 1 * (j 0).val = (j 0).val; rw [e2]; ring
  | ⟨1, _⟩ => show win4_1.index t (1 : Fin 2) * 64 + 1 * (j 1).val = (j 1).val; rw [e3]; ring

/-- Reading point t's block of a result-shaped array picks the point's rows. -/
theorem result_block (G : FVec Ideal S100000x64 .f32) (t : Fin cfg4.N) :
    ((cfg4.win 2).blk t).view.read (Elt Ideal) G = rowsOf (rowsAt t) G := by
  obtain ⟨-, -, -, -, e4, e5⟩ := index_facts t
  funext j
  show G (((cfg4.win 2).blk t).view.emb j) = G (ix2 (rowsAt t (j 0)) (j 1))
  refine congrArg G (funext fun a => Fin.ext ?_)
  match a with
  | ⟨0, _⟩ => show win4_2.index t (0 : Fin 2) * 5000 + 1 * (j 0).val = 5000 * t.val + (j 0).val; rw [e4]; ring
  | ⟨1, _⟩ => show win4_2.index t (1 : Fin 2) * 64 + 1 * (j 1).val = (j 1).val; rw [e5]; ring

/-- What point t writes back is its block of the whole product. -/
theorem flushed_eq (c : Dev nD) (t : Fin cfg4.N) :
    (dat4 V c).flushed 2 t
      = ((cfg4.win 2).blk t).view.read (Elt Ideal) (product (V c main_v63) (V c main_arg7)) := by
  show (cfg4.win 2).cut (grid4.coords t) ((dat4 V c).after 2 t) = _
  rw [after4_2, result_block]
  unfold out4_2
  rw [View.canon_unit_zero origin]
  simp only [View.ld_unit_zero (S := S5000x128) origin, View.ld_unit_zero (S := S128x64) origin]
  rw [left_block, table_block]
  exact payload_rows _ _ _

/-- An index is in point t's block iff its row is among the point's 5000 rows. -/
theorem mem_block (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v64).slice (win4_2.rect t)).set ↔ _
  rw [View.set_slice_whole, Rect.mem_set_unit]
  exact Iff.rfl

/-- Every row lies in the block of the point numbered row / 5000. -/
theorem covered (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  let t : Fin cfg4.N := ⟨(i 0).val / 5000, by show (i 0).val / 5000 < 20; omega⟩
  obtain ⟨-, -, -, -, e4, e5⟩ := index_facts t
  refine ⟨t, flush4_2 t, ?_⟩
  rw [mem_block]
  intro a
  match a with
  | ⟨0, _⟩ =>
    show win4_2.index t (0 : Fin 2) * 5000 ≤ (i 0).val ∧ (i 0).val < win4_2.index t (0 : Fin 2) * 5000 + 5000
    rw [e4]; show (i 0).val / 5000 * 5000 ≤ (i 0).val ∧ (i 0).val < (i 0).val / 5000 * 5000 + 5000; omega
  | ⟨1, _⟩ =>
    show win4_2.index t (1 : Fin 2) * 64 ≤ (i 1).val ∧ (i 1).val < win4_2.index t (1 : Fin 2) * 64 + 64
    rw [e5]; omega

/-- THE RESULT ARRAY after the region: the host's product of the two arrays the region found. -/
theorem final (c : Dev nD) :
    (dat4 V c).arrAt 2 cfg4.N = product (V c main_v63) (V c main_arg7) :=
  (dat4 V c).arrAt_eq_of_cover 2 (product (V c main_v63) (V c main_arg7)) (fun t _ => flushed_eq V c t) covered

end Cert.KernelIdeal.Lin4

end
-- ==== Proof.LibRowBias.lean ====
/-
  One row broadcast down a block of rows, against the same row broadcast down a tall table: a row [1, N] laid down
  TM rows by a vector broadcast is, for ANY map ρ of the TM row numbers into the M row numbers, the rows ρ 0, ρ 1, …
  of the same row laid down M rows by a host broadcast_in_dim along both axes. Any sizes, any element type.
-/
import Idealize.ShloMosaic.Lib.Pipeline.Value
import Idealize.ShloMosaic.Lib.ValueIdx
import Idealize.ShloMosaic.Lib.ValueLayout
import proofs.«171147_j55516747268431_1_alg».proof.Proof.LibBlockRows

noncomputable section

namespace Cert.RowBias

open Idealize.ShloMosaic Idealize.ShloMosaic.ValueIdx Cert.BlockRows

/-- One row of N numbers broadcast down TM rows is any TM picked rows of the same row broadcast down M rows. -/
theorem biasRow_rows {α : Type} {TM M N : Nat} (ρ : Fin TM → Fin M)
    (hb : (⟨2, ![1, N]⟩ : Shape).Broadcasts ⟨2, ![TM, N]⟩)
    (h2 : (⟨2, ![1, N]⟩ : Shape).BroadcastsInDim ⟨2, ![M, N]⟩ ![0, 1]) (B : (⟨2, ![1, N]⟩ : Shape).Idx → α) :
    broadcastTo ⟨2, ![TM, N]⟩ B hb = rowsOf ρ (broadcastInDim ⟨2, ![M, N]⟩ ![0, 1] h2 B) := by
  funext j
  obtain ⟨p, c, rfl⟩ : ∃ (p : Fin TM) (c : Fin N), j = ix2 p c := ⟨j 0, j 1, eq_ix2 j⟩
  rw [broadcastTo_1b_ab_apply, rowsOf_apply]
  refine (broadcastInDim_apply _ h2 B (ix2 (ρ p) c) (ix2 (0 : Fin 1) c) fun a => ?_).symm
  match a with
  | ⟨0, _⟩ => show (0 : Fin 1).val = if (1 : Nat) = 1 then 0 else (ρ p).val; rw [if_pos rfl]; rfl
  | ⟨1, _⟩ =>
    show c.val = if N = 1 then 0 else c.val
    split
    · have := c.isLt; omega
    · rfl

end Cert.RowBias

end
-- ==== Proof.Act1.lean ====
/-
  The bias-and-rectify region number 1: a grid of 20 points, point t adding one row of 128 numbers to each of rows
  5000·t … 5000·t + 4999 of a 100000 × 128 array and taking the maximum with zero.
  Adding a fixed row and a maximum with zero act on each entry by itself, so block t of the result is rows 5000·t … of the
  host's layer (two broadcasts of the row, a sum, a maximum with a broadcast zero) on the whole array; the 20 blocks tile
  the 100000 rows, so after the region the result array IS the host's layer of the two arrays the region found.
-/
import proofs.«171147_j55516747268431_1_alg».proof.Proof.Gen.KernelIdeal.Frame
import proofs.«171147_j55516747268431_1_alg».proof.Proof.LibBlockRows
import proofs.«171147_j55516747268431_1_alg».proof.Proof.LibRowBias
import Idealize.ShloMosaic.Lib.Pipeline.Value
import Idealize.ShloMosaic.Lib.ValueIdx

noncomputable section

namespace Cert.KernelIdeal.Act1

open Cert.KernelIdeal Cert.KernelIdeal.Gen Idealize.ShloMosaic Idealize.ShloMosaic.TcCoe Idealize.SL.Sem
open Idealize.ShloMosaic.ValueIdx Idealize.ShloMosaic.Pipeline Cert.BlockRows

variable (V : (c : Dev nD) → (b : Ref sig .tc) → Buf (Elt Ideal) ((c : Thread nD τ).loc b))
variable (h2 : (⟨2, ![1, 128]⟩ : Shape).BroadcastsInDim ⟨2, ![100000, 128]⟩ ![0, 1])
  (h0 : (⟨0, ![]⟩ : Shape).BroadcastsInDim ⟨2, ![100000, 128]⟩ ![])

/-- The host's layer on the whole array: the row added to every row, then the maximum with zero. -/
def layer (A : FVec Ideal S100000x128 .f32) (B : FVec Ideal S1x128 .f32) : FVec Ideal S100000x128 .f32 :=
  maximumf (addf A (broadcastInDim ⟨2, ![100000, 128]⟩ ![0, 1] h2 B))
    (broadcastInDim ⟨2, ![100000, 128]⟩ ![] h0 (constant (F := Ideal) ⟨0, ![]⟩ .f32 0x00000000#32))

theorem origin : (![0, 0] : Fin 2 → Nat) = fun _ => 0 := funext fun a => by fin_cases a <;> rfl

/-- The rows of the tall array that grid point t works on. -/
abbrev rowsAt (t : Fin cfg1.N) : Fin 5000 → Fin 100000 := blockRow 5000 20 100000 (by decide) ⟨t.val, t.isLt⟩

/-- The body's arithmetic on picked rows is the picked rows of the host's layer on the whole array. -/
theorem payload_rows (ρ : Fin 5000 → Fin 100000) (A : FVec Ideal S100000x128 .f32) (B : FVec Ideal S1x128 .f32) :
    k1_pay1 (F := Ideal) (rowsOf ρ A) B = rowsOf ρ (layer h2 h0 A B) := by
  funext j
  obtain ⟨p, q, rfl⟩ : ∃ (p : Fin 5000) (q : Fin 128), j = ix2 p q := ⟨j 0, j 1, eq_ix2 j⟩
  unfold k1_pay1 layer
  rw [shapeCast_self, shapeCast_self, Cert.RowBias.biasRow_rows ρ _ h2 B, addf_rows]
  exact congrFun (relu_rows ρ h0 _) (ix2 p q)

/-- The printed index maps over the grid: the row blocks move with the point, the bias row stays. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The array operand's block at point t is the point's rows of its array. -/
theorem rows_block (c : Dev nD) (t : Fin cfg1.N) :
    iblk1 V c 0 t = rowsOf (rowsAt t) (V c main_v45) := by
  obtain ⟨e0, e1, -, -, -, -⟩ := index_facts t
  funext j
  show V c main_v45 (((cfg1.win 0).blk t).view.emb j) = V c main_v45 (ix2 (rowsAt t (j 0)) (j 1))
  refine congrArg (V c main_v45) (funext fun a => Fin.ext ?_)
  match a with
  | ⟨0, _⟩ => show win1_0.index t (0 : Fin 2) * 5000 + 1 * (j 0).val = 5000 * t.val + (j 0).val; rw [e0]; ring
  | ⟨1, _⟩ => show win1_0.index t (1 : Fin 2) * 128 + 1 * (j 1).val = (j 1).val; rw [e1]; ring

/-- The bias row's block at every point is the whole row. -/
theorem bias_block (c : Dev nD) (t : Fin cfg1.N) : iblk1 V c 1 t = V c main_v46 := by
  obtain ⟨-, -, e2, e3, -, -⟩ := index_facts t
  funext j
  show V c main_v46 (((cfg1.win 1).blk t).view.emb j) = V c main_v46 j
  refine congrArg (V c main_v46) (funext fun a => Fin.ext ?_)
  match a with
  | ⟨0, _⟩ => show win1_1.index t (0 : Fin 2) * 1 + 1 * (j 0).val = (j 0).val; rw [e2]; ring
  | ⟨1, _⟩ => show win1_1.index t (1 : Fin 2) * 128 + 1 * (j 1).val = (j 1).val; rw [e3]; ring

/-- Reading point t's block of a result-shaped array picks the point's rows. -/
theorem result_block (G : FVec Ideal S100000x128 .f32) (t : Fin cfg1.N) :
    ((cfg1.win 2).blk t).view.read (Elt Ideal) G = rowsOf (rowsAt t) G := by
  obtain ⟨-, -, -, -, e4, e5⟩ := index_facts t
  funext j
  show G (((cfg1.win 2).blk t).view.emb j) = G (ix2 (rowsAt t (j 0)) (j 1))
  refine congrArg G (funext fun a => Fin.ext ?_)
  match a with
  | ⟨0, _⟩ => show win1_2.index t (0 : Fin 2) * 5000 + 1 * (j 0).val = 5000 * t.val + (j 0).val; rw [e4]; ring
  | ⟨1, _⟩ => show win1_2.index t (1 : Fin 2) * 128 + 1 * (j 1).val = (j 1).val; rw [e5]; ring

/-- What point t writes back is its block of the host's layer on the whole array. -/
theorem flushed_eq (c : Dev nD) (t : Fin cfg1.N) :
    (dat1 V c).flushed 2 t
      = ((cfg1.win 2).blk t).view.read (Elt Ideal) (layer h2 h0 (V c main_v45) (V c main_v46)) := by
  show (cfg1.win 2).cut (grid1.coords t) ((dat1 V c).after 2 t) = _
  rw [after1_2, result_block]
  unfold out1_2
  rw [View.canon_unit_zero origin]
  simp only [View.ld_unit_zero (S := S5000x128) origin, View.ld_unit_zero (S := S1x128) origin]
  rw [rows_block, bias_block]
  exact payload_rows h2 h0 _ _ _

/-- An index is in point t's block iff its row is among the point's 5000 rows. -/
theorem mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- Every row lies in the block of the point numbered row / 5000. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  let t : Fin cfg1.N := ⟨(i 0).val / 5000, by show (i 0).val / 5000 < 20; omega⟩
  obtain ⟨-, -, -, -, e4, e5⟩ := index_facts t
  refine ⟨t, flush1_2 t, ?_⟩
  rw [mem_block]
  intro a
  match a with
  | ⟨0, _⟩ =>
    show win1_2.index t (0 : Fin 2) * 5000 ≤ (i 0).val ∧ (i 0).val < win1_2.index t (0 : Fin 2) * 5000 + 5000
    rw [e4]; show (i 0).val / 5000 * 5000 ≤ (i 0).val ∧ (i 0).val < (i 0).val / 5000 * 5000 + 5000; omega
  | ⟨1, _⟩ =>
    show win1_2.index t (1 : Fin 2) * 128 ≤ (i 1).val ∧ (i 1).val < win1_2.index t (1 : Fin 2) * 128 + 128
    rw [e5]; omega

/-- THE RESULT ARRAY after the region: the host's layer of the two arrays the region found. -/
theorem final (c : Dev nD) :
    (dat1 V c).arrAt 2 cfg1.N = layer h2 h0 (V c main_v45) (V c main_v46) :=
  (dat1 V c).arrAt_eq_of_cover 2 (layer h2 h0 (V c main_v45) (V c main_v46)) (fun t _ => flushed_eq V h2 h0 c t) covered

end Cert.KernelIdeal.Act1

end
-- ==== Proof.Act3.lean ====
/-
  The bias-and-rectify region number 3: a grid of 20 points, point t adding one row of 128 numbers to each of rows
  5000·t … 5000·t + 4999 of a 100000 × 128 array and taking the maximum with zero.
  Adding a fixed row and a maximum with zero act on each entry by itself, so block t of the result is rows 5000·t … of the
  host's layer (two broadcasts of the row, a sum, a maximum with a broadcast zero) on the whole array; the 20 blocks tile
  the 100000 rows, so after the region the result array IS the host's layer of the two arrays the region found.
-/
import proofs.«171147_j55516747268431_1_alg».proof.Proof.Gen.KernelIdeal.Frame
import proofs.«171147_j55516747268431_1_alg».proof.Proof.LibBlockRows
import proofs.«171147_j55516747268431_1_alg».proof.Proof.LibRowBias
import Idealize.ShloMosaic.Lib.Pipeline.Value
import Idealize.ShloMosaic.Lib.ValueIdx

noncomputable section

namespace Cert.KernelIdeal.Act3

open Cert.KernelIdeal Cert.KernelIdeal.Gen Idealize.ShloMosaic Idealize.ShloMosaic.TcCoe Idealize.SL.Sem
open Idealize.ShloMosaic.ValueIdx Idealize.ShloMosaic.Pipeline Cert.BlockRows

variable (V : (c : Dev nD) → (b : Ref sig .tc) → Buf (Elt Ideal) ((c : Thread nD τ).loc b))
variable (h2 : (⟨2, ![1, 128]⟩ : Shape).BroadcastsInDim ⟨2, ![100000, 128]⟩ ![0, 1])
  (h0 : (⟨0, ![]⟩ : Shape).BroadcastsInDim ⟨2, ![100000, 128]⟩ ![])

/-- The host's layer on the whole array: the row added to every row, then the maximum with zero. -/
def layer (A : FVec Ideal S100000x128 .f32) (B : FVec Ideal S1x128 .f32) : FVec Ideal S100000x128 .f32 :=
  maximumf (addf A (broadcastInDim ⟨2, ![100000, 128]⟩ ![0, 1] h2 B))
    (broadcastInDim ⟨2, ![100000, 128]⟩ ![] h0 (constant (F := Ideal) ⟨0, ![]⟩ .f32 0x00000000#32))

theorem origin : (![0, 0] : Fin 2 → Nat) = fun _ => 0 := funext fun a => by fin_cases a <;> rfl

/-- The rows of the tall array that grid point t works on. -/
abbrev rowsAt (t : Fin cfg3.N) : Fin 5000 → Fin 100000 := blockRow 5000 20 100000 (by decide) ⟨t.val, t.isLt⟩

/-- The body's arithmetic on picked rows is the picked rows of the host's layer on the whole array. -/
theorem payload_rows (ρ : Fin 5000 → Fin 100000) (A : FVec Ideal S100000x128 .f32) (B : FVec Ideal S1x128 .f32) :
    k3_pay1 (F := Ideal) (rowsOf ρ A) B = rowsOf ρ (layer h2 h0 A B) := by
  funext j
  obtain ⟨p, q, rfl⟩ : ∃ (p : Fin 5000) (q : Fin 128), j = ix2 p q := ⟨j 0, j 1, eq_ix2 j⟩
  unfold k3_pay1 layer
  rw [shapeCast_self, shapeCast_self, Cert.RowBias.biasRow_rows ρ _ h2 B, addf_rows]
  exact congrFun (relu_rows ρ h0 _) (ix2 p q)

/-- The printed index maps over the grid: the row blocks move with the point, the bias row stays. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The array operand's block at point t is the point's rows of its array. -/
theorem rows_block (c : Dev nD) (t : Fin cfg3.N) :
    iblk3 V c 0 t = rowsOf (rowsAt t) (V c main_v61) := by
  obtain ⟨e0, e1, -, -, -, -⟩ := index_facts t
  funext j
  show V c main_v61 (((cfg3.win 0).blk t).view.emb j) = V c main_v61 (ix2 (rowsAt t (j 0)) (j 1))
  refine congrArg (V c main_v61) (funext fun a => Fin.ext ?_)
  match a with
  | ⟨0, _⟩ => show win3_0.index t (0 : Fin 2) * 5000 + 1 * (j 0).val = 5000 * t.val + (j 0).val; rw [e0]; ring
  | ⟨1, _⟩ => show win3_0.index t (1 : Fin 2) * 128 + 1 * (j 1).val = (j 1).val; rw [e1]; ring

/-- The bias row's block at every point is the whole row. -/
theorem bias_block (c : Dev nD) (t : Fin cfg3.N) : iblk3 V c 1 t = V c main_v62 := by
  obtain ⟨-, -, e2, e3, -, -⟩ := index_facts t
  funext j
  show V c main_v62 (((cfg3.win 1).blk t).view.emb j) = V c main_v62 j
  refine congrArg (V c main_v62) (funext fun a => Fin.ext ?_)
  match a with
  | ⟨0, _⟩ => show win3_1.index t (0 : Fin 2) * 1 + 1 * (j 0).val = (j 0).val; rw [e2]; ring
  | ⟨1, _⟩ => show win3_1.index t (1 : Fin 2) * 128 + 1 * (j 1).val = (j 1).val; rw [e3]; ring

/-- Reading point t's block of a result-shaped array picks the point's rows. -/
theorem result_block (G : FVec Ideal S100000x128 .f32) (t : Fin cfg3.N) :
    ((cfg3.win 2).blk t).view.read (Elt Ideal) G = rowsOf (rowsAt t) G := by
  obtain ⟨-, -, -, -, e4, e5⟩ := index_facts t
  funext j
  show G (((cfg3.win 2).blk t).view.emb j) = G (ix2 (rowsAt t (j 0)) (j 1))
  refine congrArg G (funext fun a => Fin.ext ?_)
  match a with
  | ⟨0, _⟩ => show win3_2.index t (0 : Fin 2) * 5000 + 1 * (j 0).val = 5000 * t.val + (j 0).val; rw [e4]; ring
  | ⟨1, _⟩ => show win3_2.index t (1 : Fin 2) * 128 + 1 * (j 1).val = (j 1).val; rw [e5]; ring

/-- What point t writes back is its block of the host's layer on the whole array. -/
theorem flushed_eq (c : Dev nD) (t : Fin cfg3.N) :
    (dat3 V c).flushed 2 t
      = ((cfg3.win 2).blk t).view.read (Elt Ideal) (layer h2 h0 (V c main_v61) (V c main_v62)) := by
  show (cfg3.win 2).cut (grid3.coords t) ((dat3 V c).after 2 t) = _
  rw [after3_2, result_block]
  unfold out3_2
  rw [View.canon_unit_zero origin]
  simp only [View.ld_unit_zero (S := S5000x128) origin, View.ld_unit_zero (S := S1x128) origin]
  rw [rows_block, bias_block]
  exact payload_rows h2 h0 _ _ _

/-- An index is in point t's block iff its row is among the point's 5000 rows. -/
theorem mem_block (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v63).slice (win3_2.rect t)).set ↔ _
  rw [View.set_slice_whole, Rect.mem_set_unit]
  exact Iff.rfl

/-- Every row lies in the block of the point numbered row / 5000. -/
theorem covered (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  let t : Fin cfg3.N := ⟨(i 0).val / 5000, by show (i 0).val / 5000 < 20; omega⟩
  obtain ⟨-, -, -, -, e4, e5⟩ := index_facts t
  refine ⟨t, flush3_2 t, ?_⟩
  rw [mem_block]
  intro a
  match a with
  | ⟨0, _⟩ =>
    show win3_2.index t (0 : Fin 2) * 5000 ≤ (i 0).val ∧ (i 0).val < win3_2.index t (0 : Fin 2) * 5000 + 5000
    rw [e4]; show (i 0).val / 5000 * 5000 ≤ (i 0).val ∧ (i 0).val < (i 0).val / 5000 * 5000 + 5000; omega
  | ⟨1, _⟩ =>
    show win3_2.index t (1 : Fin 2) * 128 ≤ (i 1).val ∧ (i 1).val < win3_2.index t (1 : Fin 2) * 128 + 128
    rw [e5]; omega

/-- THE RESULT ARRAY after the region: the host's layer of the two arrays the region found. -/
theorem final (c : Dev nD) :
    (dat3 V c).arrAt 2 cfg3.N = layer h2 h0 (V c main_v61) (V c main_v62) :=
  (dat3 V c).arrAt_eq_of_cover 2 (layer h2 h0 (V c main_v61) (V c main_v62)) (fun t _ => flushed_eq V h2 h0 c t) covered

end Cert.KernelIdeal.Act3

end
-- ==== Proof.LibRowSoftmax.lean ====
/-
  Softmax along the last axis, on the extended reals, and the operations a vector kernel or a host program builds it from,
  each read at one element, over any sizes.

  For a row `r` of extended reals, `rowMax r` is the greatest entry (the fold of `max` from −∞) and
  `rowSoftmax r j = exp (r j − rowMax r) / ∑ k, exp (r k − rowMax r)`, with the exponential and the quotient of the
  ideal float values (so the corners are theirs: exp (−∞) = 0, x / ±∞ = 0, …). `softmax2` and `softmax4` apply it to
  every row of a matrix and to every last-axis row of a rank-4 array. A softmax only looks along rows: two arrays that
  hold the same row give the same values on it (`softmax2_row`, `softmax4_row2`), which is what carries the function
  through blocks, sub-blocks and reshapes that keep rows whole.

  Read at an element: a lane maximum of an [a, b] vector from −∞ is `rowMax` of the row (`laneMax_apply`), a lane sum is
  the row's sum (`laneSum_apply`), a reduced column cast to [a, 1] and broadcast to [a, b] reads its row's entry
  (`keepdimsCol_apply`); the host's max-reduction over the last of four axes from −∞ is `rowMax` of that row
  (`hostRowMax_apply`), and a further `max` with −∞ changes nothing (`max_negInf`).
-/
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

/-! ## The function -/

/-- The f32 pattern of −∞ denotes the least extended real. -/
theorem negInf_eq_bot : Ideal.ofBits .f32 0xFF800000#32 = (⊥ : EReal) := by simp [Ideal.ofBits, Ideal.ieee]

/-- The maximum with −∞ is the other operand. -/
theorem max_negInf (x : EReal) : max (Ideal.ofBits .f32 0xFF800000#32) x = x := by
  rw [negInf_eq_bot]; exact max_eq_right bot_le

/-- The greatest entry of a row: the fold of `max` from −∞ (−∞ itself for an empty row). -/
def rowMax {n : ℕ} (r : Fin n → EReal) : EReal :=
  (Finset.univ : Finset (Fin n)).fold max (Ideal.ofBits .f32 0xFF800000#32) r

/-- Softmax of a row at position `j`: the entry's exponential, shifted by the row's maximum, over the sum of all the
    row's shifted exponentials. -/
def rowSoftmax {n : ℕ} (r : Fin n → EReal) (j : Fin n) : EReal :=
  Ideal.div (Ideal.exp (r j - rowMax r)) (∑ k : Fin n, Ideal.exp (r k - rowMax r))

/-- Softmax of every row of a matrix. -/
def softmax2 {a b : ℕ} (x : (⟨2, ![a, b]⟩ : Shape).Idx → EReal) : (⟨2, ![a, b]⟩ : Shape).Idx → EReal :=
  fun y => rowSoftmax (fun k : Fin b => x (ix2 (n0 := a) (y 0) k)) (y 1)

theorem softmax2_ix2 {a b : ℕ} (x : (⟨2, ![a, b]⟩ : Shape).Idx → EReal) (p : Fin a) (q : Fin b) :
    softmax2 x (ix2 p q) = rowSoftmax (fun k => x (ix2 p k)) q := rfl

/-- Softmax along the last axis of a rank-4 array. -/
def softmax4 {a b c d : ℕ} (x : (⟨4, ![a, b, c, d]⟩ : Shape).Idx → EReal) : (⟨4, ![a, b, c, d]⟩ : Shape).Idx → EReal :=
  fun y => rowSoftmax (fun k : Fin d => x (ix4 (n0 := a) (n1 := b) (n2 := c) (y 0) (y 1) (y 2) k)) (y 3)

theorem softmax4_ix4 {a b c d : ℕ} (x : (⟨4, ![a, b, c, d]⟩ : Shape).Idx → EReal) (i : Fin a) (j : Fin b) (k : Fin c) (q : Fin d) :
    softmax4 x (ix4 i j k q) = rowSoftmax (fun l => x (ix4 i j k l)) q := rfl

/-- Two matrices holding the same row have the same softmax on it. -/
theorem softmax2_row {a a' b : ℕ} (x : (⟨2, ![a, b]⟩ : Shape).Idx → EReal) (x' : (⟨2, ![a', b]⟩ : Shape).Idx → EReal)
    (p : Fin a) (p' : Fin a') (h : ∀ k : Fin b, x' (ix2 p' k) = x (ix2 p k)) (q : Fin b) :
    softmax2 x' (ix2 p' q) = softmax2 x (ix2 p q) := by
  rw [softmax2_ix2, softmax2_ix2, funext h]

/-- A rank-4 array and a matrix holding the same row have the same softmax on it. -/
theorem softmax4_row2 {a b c d a' : ℕ} (x : (⟨4, ![a, b, c, d]⟩ : Shape).Idx → EReal) (x' : (⟨2, ![a', d]⟩ : Shape).Idx → EReal)
    (i : Fin a) (j : Fin b) (k : Fin c) (p' : Fin a') (h : ∀ l : Fin d, x' (ix2 p' l) = x (ix4 i j k l)) (q : Fin d) :
    softmax2 x' (ix2 p' q) = softmax4 x (ix4 i j k q) := by
  rw [softmax2_ix2, softmax4_ix4, funext h]

/-! ## A vector kernel's pieces, at an element -/

/-- A lane maximum of an [a, b] vector, from −∞, at row `p`: the row's greatest entry. -/
theorem laneMax_apply {a b : ℕ} (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ v 0xFF800000#32 h hφ hacc (ix1 p) = rowMax (fun k : Fin b => v (ix2 p k)) := by
  refine (Ideal.multiReduction_maximumf_single v _ h hφ hacc (ix1 p)).trans ?_
  unfold rowMax
  refine congrArg (fun f => Finset.fold max _ f Finset.univ) (funext fun k => congrArg v (funext fun c => Fin.ext ?_))
  match c with
  | ⟨0, _⟩ => rfl
  | ⟨1, _⟩ => rfl

/-- A lane sum of an [a, b] vector at row `p`: the sum of the row. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v _ h hφ hacc (ix1 p)).trans ?_
  refine Finset.sum_congr rfl fun k _ => congrArg v (funext fun c => Fin.ext ?_)
  match c with
  | ⟨0, _⟩ => rfl
  | ⟨1, _⟩ => rfl

/-- A column of `a` entries cast to [a, 1] and broadcast along the lanes to [a, b] reads, at (p, q), entry `p`. -/
theorem keepdimsCol_apply {α : Type} {a b : ℕ} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) := by
  refine (broadcastTo_apply _ hb (ix2 p q) (ix2 p (0 : Fin 1)) fun c => ?_).trans ?_
  · match c with
    | ⟨0, _⟩ =>
      show p.val = if a = 1 then 0 else p.val
      split
      · have := p.isLt; omega
      · rfl
    | ⟨1, _⟩ =>
      exact (if_pos rfl).symm
  · refine shapeCast_apply u hc (ix2 p (0 : Fin 1)) (ix1 p) ?_
    rw [Shape.rowMajor_val_one, Shape.rowMajor_val_two]
    show p.val = p.val * 1 + 0
    omega

/-- The whole vector expression — the lanes' maximum subtracted, the exponential, divided by the lanes' sum, the two
    reduced columns cast and broadcast back over the lanes — reads, at (p, q), the softmax of row `p` at `q`. -/
theorem vectorSoftmax_apply {a b : ℕ} (v : FVec Ideal ⟨2, ![a, b]⟩ .f32) (hr : Shape.Reduces ⟨2, ![a, b]⟩ [1] ⟨1, ![a]⟩)
    (hφ hφ' : FKind.Formats .f32) (hm : (0xFF800000#32 : BitVec 32) = FKind.maximumf.neutral .f32 hφ)
    (hs : (0x00000000#32 : BitVec 32) = FKind.add.neutral .f32 hφ')
    (hc : (⟨1, ![a]⟩ : Shape).ShapeCasts ⟨2, ![a, 1]⟩) (hb : (⟨2, ![a, 1]⟩ : Shape).Broadcasts ⟨2, ![a, b]⟩)
    (p : Fin a) (q : Fin b) :
    divf (exp (subf v (broadcastTo ⟨2, ![a, b]⟩ (shapeCast ⟨2, ![a, 1]⟩ (multiReduction .maximumf [1] ⟨1, ![a]⟩ v 0xFF800000#32 hr hφ hm) hc) hb)))
        (broadcastTo ⟨2, ![a, b]⟩ (shapeCast ⟨2, ![a, 1]⟩ (multiReduction .add [1] ⟨1, ![a]⟩
          (exp (subf v (broadcastTo ⟨2, ![a, b]⟩ (shapeCast ⟨2, ![a, 1]⟩ (multiReduction .maximumf [1] ⟨1, ![a]⟩ v 0xFF800000#32 hr hφ hm) hc) hb)))
          0x00000000#32 hr hφ' hs) hc) hb) (ix2 p q)
      = softmax2 v (ix2 p q) := by
  have hsub : ∀ k : Fin b, exp (subf v (broadcastTo ⟨2, ![a, b]⟩ (shapeCast ⟨2, ![a, 1]⟩ (multiReduction .maximumf [1] ⟨1, ![a]⟩ v 0xFF800000#32 hr hφ hm) hc) hb)) (ix2 p k)
      = Ideal.exp (v (ix2 p k) - rowMax (fun l : Fin b => v (ix2 p l))) := fun k => by
    show Ideal.exp (v (ix2 p k) - broadcastTo ⟨2, ![a, b]⟩ (shapeCast ⟨2, ![a, 1]⟩ (multiReduction .maximumf [1] ⟨1, ![a]⟩ v 0xFF800000#32 hr hφ hm) hc) hb (ix2 p k)) = _
    rw [keepdimsCol_apply, laneMax_apply]
  rw [softmax2_ix2]
  unfold rowSoftmax
  show Ideal.div (exp (subf v _) (ix2 p q)) (broadcastTo ⟨2, ![a, b]⟩ (shapeCast ⟨2, ![a, 1]⟩ _ hc) hb (ix2 p q)) = _
  rw [keepdimsCol_apply, laneSum_apply, hsub q]
  exact congrArg _ (Finset.sum_congr rfl fun k _ => hsub k)

/-! ## The host's pieces, at an element -/

/-- The host's max-reduction over the last of four axes, from an initial value, at (i, j, k): the fold of `max` from the
    initial value over that row. -/
theorem hostRowFold_apply {a b c d : ℕ} (x : FVec Ideal ⟨4, ![a, b, c, d]⟩ .f32) (init : FVec Ideal ⟨0, ![]⟩ .f32)
    (h' : Shape.ReducesTo ⟨4, ![a, b, c, d]⟩ [3] ⟨3, ![a, b, c]⟩) (h : Shape.Reduces ⟨4, ![a, b, c, d]⟩ [3] ⟨3, ![a, b, c]⟩)
    (hu : 0 < (⟨0, ![]⟩ : Shape).numel) (i : Fin a) (j : Fin b) (k : Fin c) :
    Host.reduce FloatOps.maximumf x init h' hu (ix3 i j k)
      = (Finset.univ : Finset (Fin d)).fold max (init (Shape.Idx.first hu)) (fun l : Fin d => x (ix4 i j k l)) := by
  refine (Host.reduce_eq_fold_single FloatOps.maximumf x init h' h hu (ix3 i j k)).trans ?_
  refine congrArg (fun f => Finset.fold max _ f Finset.univ) (funext fun l => congrArg x (funext fun e => Fin.ext ?_))
  match e with
  | ⟨0, _⟩ => rfl
  | ⟨1, _⟩ => rfl
  | ⟨2, _⟩ => rfl
  | ⟨3, _⟩ => rfl

end Cert.RowSoftmax

end
-- ==== Proof.LibHostRowSoftmax.lean ====
/-
  Softmax along the last axis of a matrix as a host program spells it, read at one element on the extended reals, over
  any sizes: the row maximum by a max-reduction from −∞ (and one more maximum with −∞, which changes nothing), cast to a
  column and broadcast back, subtracted; the exponential; the row sum by an add-reduction from zero, cast and broadcast
  back; the quotient. At (p, q) the whole expression is the softmax of row p at q.
-/
import Idealize.ShloMosaic.PureOps.Ideal.Laws
import Idealize.ShloMosaic.Lib.ValueIdx
import Idealize.ShloMosaic.Lib.Pipeline.Value
import proofs.«171147_j55516747268431_1_alg».proof.Proof.LibRowSoftmax

noncomputable section

open scoped BigOperators

namespace Cert.HostRowSoftmax

open Idealize.ShloMosaic Idealize.ShloMosaic.ValueIdx Cert.RowSoftmax

/-- The host's max-reduction over the last of two axes, from an initial value, at row p: the fold of `max` from the
    initial value over that row. -/
theorem hostRowFold_apply {a b : ℕ} (x : FVec Ideal ⟨2, ![a, b]⟩ .f32) (init : FVec Ideal ⟨0, ![]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (p : Fin a) :
    Host.reduce FloatOps.maximumf x init h' hu (ix1 p)
      = (Finset.univ : Finset (Fin b)).fold max (init (Shape.Idx.first hu)) (fun l : Fin b => x (ix2 p l)) := by
  refine (Host.reduce_eq_fold_single FloatOps.maximumf x init h' h hu (ix1 p)).trans ?_
  refine congrArg (fun f => Finset.fold max _ f Finset.univ) (funext fun l => congrArg x (funext fun e => Fin.ext ?_))
  match e with
  | ⟨0, _⟩ => rfl
  | ⟨1, _⟩ => rfl

/-- The host's add-reduction over the last of two axes, from the zero word, at row p: the sum of that row. -/
theorem hostRowSum_apply {a b : ℕ} (x : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (p : Fin a) :
    Host.reduceAdd x (constant (F := Ideal) ⟨0, ![]⟩ .f32 0x00000000#32) h' hu (ix1 p) = ∑ l : Fin b, x (ix2 p l) := by
  simp only [Host.reduceAdd, Ideal.hostReduceAdd_def]
  rw [Ideal.hostReduceAdd_single h' h]
  rw [constant_apply, Ideal.ofBits_zero_f32, zero_add]
  refine Finset.sum_congr rfl fun l _ => congrArg x (funext fun e => Fin.ext ?_)
  match e with
  | ⟨0, _⟩ => rfl
  | ⟨1, _⟩ => rfl

/-- A vector of `a` entries laid as a column [a, 1] and then along the lanes to [a, b] by two `broadcast_in_dim`s reads,
    at (p, q), entry p. -/
theorem keepdimsCol_apply {α : Type} {a b : ℕ} (u : (⟨1, ![a]⟩ : Shape).Idx → α)
    (b1 : (⟨1, ![a]⟩ : Shape).BroadcastsInDim ⟨2, ![a, 1]⟩ ![0])
    (b2 : (⟨2, ![a, 1]⟩ : Shape).BroadcastsInDim ⟨2, ![a, b]⟩ ![0, 1]) (p : Fin a) (q : Fin b) :
    broadcastInDim ⟨2, ![a, b]⟩ ![0, 1] b2 (broadcastInDim ⟨2, ![a, 1]⟩ ![0] b1 u) (ix2 p q) = u (ix1 p) := by
  refine (broadcastInDim_apply _ b2 _ (ix2 p q) (ix2 p (0 : Fin 1)) fun c => ?_).trans ?_
  · match c with
    | ⟨0, _⟩ =>
      show p.val = if a = 1 then 0 else p.val
      split
      · have := p.isLt; omega
      · rfl
    | ⟨1, _⟩ => exact (if_pos rfl).symm
  · refine broadcastInDim_apply _ b1 u (ix2 p (0 : Fin 1)) (ix1 p) fun c => ?_
    match c with
    | ⟨0, _⟩ =>
      show p.val = if a = 1 then 0 else p.val
      split
      · have := p.isLt; omega
      · rfl

/-- The row maximum as the host takes it — the max-reduction from −∞, then the maximum with −∞ broadcast from rank
    zero — at row p: the row's greatest entry. -/
theorem hostRowMax_apply {a b : ℕ} (s : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (b0 : (⟨0, ![]⟩ : Shape).BroadcastsInDim ⟨1, ![a]⟩ ![]) (p : Fin a) :
    maximumf (broadcastInDim ⟨1, ![a]⟩ ![] b0 (constant (F := Ideal) ⟨0, ![]⟩ .f32 0xFF800000#32))
        (Host.reduce FloatOps.maximumf s (constant (F := Ideal) ⟨0, ![]⟩ .f32 0xFF800000#32) h' hu) (ix1 p)
      = rowMax (fun l : Fin b => s (ix2 p l)) := by
  have e1 : broadcastInDim ⟨1, ![a]⟩ ![] b0 (constant (F := Ideal) ⟨0, ![]⟩ .f32 0xFF800000#32) (ix1 p)
      = Ideal.ofBits .f32 0xFF800000#32 :=
    broadcastInDim_apply ![] b0 (constant (F := Ideal) ⟨0, ![]⟩ .f32 0xFF800000#32) (ix1 p) (fun e => e.elim0) (fun e => e.elim0)
  rw [maximumf_apply, e1, max_negInf, hostRowFold_apply s _ h' h hu p, constant_apply]
  unfold rowMax
  rfl

/-- The host's exponential of a difference at an index. -/
theorem hostExpSub_apply {t : Shape} (s B : FVec Ideal t .f32) (i : t.Idx) :
    Host.exp (subf s B) i = Ideal.exp (s i - B i) := rfl

/-- The host's quotient at an index. -/
theorem hostDivf_apply {t : Shape} (u v : FVec Ideal t .f32) (i : t.Idx) :
    Host.divf u v i = Ideal.div (u i) (v i) := rfl

/-- The host's whole softmax expression at (p, q): the softmax of row p at q. -/
theorem hostSoftmax_apply {a b : ℕ} (s : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (b0 : (⟨0, ![]⟩ : Shape).BroadcastsInDim ⟨1, ![a]⟩ ![])
    (b1 : (⟨1, ![a]⟩ : Shape).BroadcastsInDim ⟨2, ![a, 1]⟩ ![0])
    (b2 : (⟨2, ![a, 1]⟩ : Shape).BroadcastsInDim ⟨2, ![a, b]⟩ ![0, 1]) (p : Fin a) (q : Fin b) :
    Host.divf
        (Host.exp (subf s (broadcastInDim ⟨2, ![a, b]⟩ ![0, 1] b2 (broadcastInDim ⟨2, ![a, 1]⟩ ![0] b1
          (maximumf (broadcastInDim ⟨1, ![a]⟩ ![] b0 (constant (F := Ideal) ⟨0, ![]⟩ .f32 0xFF800000#32))
            (Host.reduce FloatOps.maximumf s (constant (F := Ideal) ⟨0, ![]⟩ .f32 0xFF800000#32) h' hu))))))
        (broadcastInDim ⟨2, ![a, b]⟩ ![0, 1] b2 (broadcastInDim ⟨2, ![a, 1]⟩ ![0] b1
          (Host.reduceAdd (Host.exp (subf s (broadcastInDim ⟨2, ![a, b]⟩ ![0, 1] b2 (broadcastInDim ⟨2, ![a, 1]⟩ ![0] b1
            (maximumf (broadcastInDim ⟨1, ![a]⟩ ![] b0 (constant (F := Ideal) ⟨0, ![]⟩ .f32 0xFF800000#32))
              (Host.reduce FloatOps.maximumf s (constant (F := Ideal) ⟨0, ![]⟩ .f32 0xFF800000#32) h' hu))))))
            (constant (F := Ideal) ⟨0, ![]⟩ .f32 0x00000000#32) h' hu))) (ix2 p q)
      = softmax2 s (ix2 p q) := by
  have hsub : ∀ k : Fin b, Host.exp (subf s (broadcastInDim ⟨2, ![a, b]⟩ ![0, 1] b2 (broadcastInDim ⟨2, ![a, 1]⟩ ![0] b1
        (maximumf (broadcastInDim ⟨1, ![a]⟩ ![] b0 (constant (F := Ideal) ⟨0, ![]⟩ .f32 0xFF800000#32))
          (Host.reduce FloatOps.maximumf s (constant (F := Ideal) ⟨0, ![]⟩ .f32 0xFF800000#32) h' hu))))) (ix2 p k)
      = Ideal.exp (s (ix2 p k) - rowMax (fun l : Fin b => s (ix2 p l))) := fun k => by
    rw [hostExpSub_apply, keepdimsCol_apply, hostRowMax_apply s h' h hu b0 p]
  rw [softmax2_ix2]
  unfold rowSoftmax
  rw [hostDivf_apply, keepdimsCol_apply, hostRowSum_apply _ h' h hu p, hsub q]
  exact congrArg _ (Finset.sum_congr rfl fun k _ => hsub k)

end Cert.HostRowSoftmax

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.LibRowLogSoftmax.lean ====
/-
  Log-softmax along the last axis of a matrix, on the extended reals, read at one element, over any sizes.

  For a row `r` with greatest entry `m = rowMax r`, the log-softmax at position `j` is

      (r j − m) − log (Σ_k exp (r k − m)),

  with the exponential, the logarithm and the subtraction of the ideal float values (`rowLogSoftmax`). A vector kernel and
  a host program both build it from the same pieces — the row maximum from −∞, subtracted; the exponential; the row sum
  from zero; its logarithm taken ON THE REDUCED COLUMN and only then laid back along the lanes; subtracted again — and
  differ only in how the reduced columns are laid back: the vector unit casts a vector [a] to [a, 1] and broadcasts it to
  [a, b], the host uses two `broadcast_in_dim`s (and one more maximum with −∞, which changes nothing). At (p, q) either
  expression is `rowLogSoftmax` of row p at q (`vector_apply`, `host_apply`); like a softmax, it only looks along rows.
-/
import Idealize.ShloMosaic.PureOps.Ideal.Laws
import Idealize.ShloMosaic.Lib.ValueIdx
import Idealize.ShloMosaic.Lib.Pipeline.Value
import proofs.«171147_j55516747268431_1_alg».proof.Proof.LibRowSoftmax
import proofs.«171147_j55516747268431_1_alg».proof.Proof.LibHostRowSoftmax
import proofs.«171147_j55516747268431_1_alg».proof.Proof.LibColRowBroadcast

noncomputable section

open scoped BigOperators

namespace Cert.RowLogSoftmax

open Idealize.ShloMosaic Idealize.ShloMosaic.ValueIdx Cert.RowSoftmax

/-- Log-softmax of a row at position `j`: the entry shifted by the row's maximum, less the logarithm of the sum of all
    the row's shifted exponentials. -/
def rowLogSoftmax {n : ℕ} (r : Fin n → EReal) (j : Fin n) : EReal :=
  (r j - rowMax r) - Ideal.log (∑ k : Fin n, Ideal.exp (r k - rowMax r))

/-- Log-softmax of every row of a matrix. -/
def logSoftmax2 {a b : ℕ} (x : (⟨2, ![a, b]⟩ : Shape).Idx → EReal) : (⟨2, ![a, b]⟩ : Shape).Idx → EReal :=
  fun y => rowLogSoftmax (fun k : Fin b => x (ix2 (n0 := a) (y 0) k)) (y 1)

theorem logSoftmax2_ix2 {a b : ℕ} (x : (⟨2, ![a, b]⟩ : Shape).Idx → EReal) (p : Fin a) (q : Fin b) :
    logSoftmax2 x (ix2 p q) = rowLogSoftmax (fun k => x (ix2 p k)) q := rfl

/-! ## The vector unit's spelling -/

/-- The whole vector expression — the lanes' maximum subtracted, the exponential, the lanes' sum, its logarithm on the
    reduced column, broadcast back and subtracted — reads, at (p, q), the log-softmax of row `p` at `q`. -/
theorem vector_apply {a b : ℕ} (v : FVec Ideal ⟨2, ![a, b]⟩ .f32) (hr : Shape.Reduces ⟨2, ![a, b]⟩ [1] ⟨1, ![a]⟩)
    (hφ hφ' : FKind.Formats .f32) (hm : (0xFF800000#32 : BitVec 32) = FKind.maximumf.neutral .f32 hφ)
    (hs : (0x00000000#32 : BitVec 32) = FKind.add.neutral .f32 hφ')
    (hc : (⟨1, ![a]⟩ : Shape).ShapeCasts ⟨2, ![a, 1]⟩) (hb : (⟨2, ![a, 1]⟩ : Shape).Broadcasts ⟨2, ![a, b]⟩)
    (p : Fin a) (q : Fin b) :
    subf (subf v (broadcastTo ⟨2, ![a, b]⟩ (shapeCast ⟨2, ![a, 1]⟩ (multiReduction .maximumf [1] ⟨1, ![a]⟩ v 0xFF800000#32 hr hφ hm) hc) hb))
        (broadcastTo ⟨2, ![a, b]⟩ (log (shapeCast ⟨2, ![a, 1]⟩ (multiReduction .add [1] ⟨1, ![a]⟩
          (exp (subf v (broadcastTo ⟨2, ![a, b]⟩ (shapeCast ⟨2, ![a, 1]⟩ (multiReduction .maximumf [1] ⟨1, ![a]⟩ v 0xFF800000#32 hr hφ hm) hc) hb)))
          0x00000000#32 hr hφ' hs) hc)) hb) (ix2 p q)
      = rowLogSoftmax (fun k => v (ix2 p k)) q := by
  have hsub : ∀ k : Fin b, subf v (broadcastTo ⟨2, ![a, b]⟩ (shapeCast ⟨2, ![a, 1]⟩ (multiReduction .maximumf [1] ⟨1, ![a]⟩ v 0xFF800000#32 hr hφ hm) hc) hb) (ix2 p k)
      = v (ix2 p k) - rowMax (fun l : Fin b => v (ix2 p l)) := fun k => by
    rw [subf_apply, keepdimsCol_apply, laneMax_apply]
  unfold rowLogSoftmax
  rw [subf_apply, hsub q, Cert.ColRowBroadcast.colBroadcast_apply]
  show _ - Ideal.log (shapeCast ⟨2, ![a, 1]⟩ (multiReduction .add [1] ⟨1, ![a]⟩
      (exp (subf v (broadcastTo ⟨2, ![a, b]⟩ (shapeCast ⟨2, ![a, 1]⟩ (multiReduction .maximumf [1] ⟨1, ![a]⟩ v 0xFF800000#32 hr hφ hm) hc) hb)))
      0x00000000#32 hr hφ' hs) hc (ix2 p (0 : Fin 1))) = _
  rw [Cert.ColRowBroadcast.colCast_apply, laneSum_apply]
  refine congrArg (fun z => _ - Ideal.log z) (Finset.sum_congr rfl fun k _ => ?_)
  show Ideal.exp (subf v _ (ix2 p k)) = _
  rw [hsub k]

/-! ## The host's spelling -/

/-- A vector of `a` entries laid as a column [a, 1] by a `broadcast_in_dim` reads, at (p, 0), entry p. -/
theorem hostColCast_apply {α : Type} {a : ℕ} (u : (⟨1, ![a]⟩ : Shape).Idx → α)
    (b1 : (⟨1, ![a]⟩ : Shape).BroadcastsInDim ⟨2, ![a, 1]⟩ ![0]) (p : Fin a) (z : Fin 1) :
    broadcastInDim ⟨2, ![a, 1]⟩ ![0] b1 u (ix2 p z) = u (ix1 p) := by
  refine broadcastInDim_apply _ b1 u (ix2 p z) (ix1 p) fun c => ?_
  match c with
  | ⟨0, _⟩ =>
    show p.val = if a = 1 then 0 else p.val
    split
    · have := p.isLt; omega
    · rfl

/-- A column [a, 1] laid along the lanes to [a, b] by a `broadcast_in_dim` reads, at (p, q), the column at (p, 0). -/
theorem hostColBroadcast_apply {α : Type} {a b : ℕ} (w : (⟨2, ![a, 1]⟩ : Shape).Idx → α)
    (b2 : (⟨2, ![a, 1]⟩ : Shape).BroadcastsInDim ⟨2, ![a, b]⟩ ![0, 1]) (p : Fin a) (q : Fin b) :
    broadcastInDim ⟨2, ![a, b]⟩ ![0, 1] b2 w (ix2 p q) = w (ix2 p (0 : Fin 1)) := by
  refine broadcastInDim_apply _ b2 w (ix2 p q) (ix2 p (0 : Fin 1)) fun c => ?_
  match c with
  | ⟨0, _⟩ =>
    show p.val = if a = 1 then 0 else p.val
    split
    · have := p.isLt; omega
    · rfl
  | ⟨1, _⟩ => exact (if_pos rfl).symm

/-- The host's whole log-softmax expression at (p, q): the log-softmax of row p at q. -/
theorem host_apply {a b : ℕ} (s : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (b0 : (⟨0, ![]⟩ : Shape).BroadcastsInDim ⟨1, ![a]⟩ ![])
    (b1 : (⟨1, ![a]⟩ : Shape).BroadcastsInDim ⟨2, ![a, 1]⟩ ![0])
    (b2 : (⟨2, ![a, 1]⟩ : Shape).BroadcastsInDim ⟨2, ![a, b]⟩ ![0, 1]) (p : Fin a) (q : Fin b) :
    subf
        (subf s (broadcastInDim ⟨2, ![a, b]⟩ ![0, 1] b2 (broadcastInDim ⟨2, ![a, 1]⟩ ![0] b1
          (maximumf (broadcastInDim ⟨1, ![a]⟩ ![] b0 (constant (F := Ideal) ⟨0, ![]⟩ .f32 0xFF800000#32))
            (Host.reduce FloatOps.maximumf s (constant (F := Ideal) ⟨0, ![]⟩ .f32 0xFF800000#32) h' hu)))))
        (broadcastInDim ⟨2, ![a, b]⟩ ![0, 1] b2 (Host.log (broadcastInDim ⟨2, ![a, 1]⟩ ![0] b1
          (Host.reduceAdd (Host.exp (subf s (broadcastInDim ⟨2, ![a, b]⟩ ![0, 1] b2 (broadcastInDim ⟨2, ![a, 1]⟩ ![0] b1
            (maximumf (broadcastInDim ⟨1, ![a]⟩ ![] b0 (constant (F := Ideal) ⟨0, ![]⟩ .f32 0xFF800000#32))
              (Host.reduce FloatOps.maximumf s (constant (F := Ideal) ⟨0, ![]⟩ .f32 0xFF800000#32) h' hu))))))
            (constant (F := Ideal) ⟨0, ![]⟩ .f32 0x00000000#32) h' hu)))) (ix2 p q)
      = rowLogSoftmax (fun k => s (ix2 p k)) q := by
  have hsub : ∀ k : Fin b, subf s (broadcastInDim ⟨2, ![a, b]⟩ ![0, 1] b2 (broadcastInDim ⟨2, ![a, 1]⟩ ![0] b1
        (maximumf (broadcastInDim ⟨1, ![a]⟩ ![] b0 (constant (F := Ideal) ⟨0, ![]⟩ .f32 0xFF800000#32))
          (Host.reduce FloatOps.maximumf s (constant (F := Ideal) ⟨0, ![]⟩ .f32 0xFF800000#32) h' hu)))) (ix2 p k)
      = s (ix2 p k) - rowMax (fun l : Fin b => s (ix2 p l)) := fun k => by
    rw [subf_apply, Cert.HostRowSoftmax.keepdimsCol_apply, Cert.HostRowSoftmax.hostRowMax_apply s h' h hu b0 p]
  unfold rowLogSoftmax
  rw [subf_apply, hsub q, hostColBroadcast_apply]
  show _ - Ideal.log (broadcastInDim ⟨2, ![a, 1]⟩ ![0] b1
      (Host.reduceAdd (Host.exp (subf s (broadcastInDim ⟨2, ![a, b]⟩ ![0, 1] b2 (broadcastInDim ⟨2, ![a, 1]⟩ ![0] b1
        (maximumf (broadcastInDim ⟨1, ![a]⟩ ![] b0 (constant (F := Ideal) ⟨0, ![]⟩ .f32 0xFF800000#32))
          (Host.reduce FloatOps.maximumf s (constant (F := Ideal) ⟨0, ![]⟩ .f32 0xFF800000#32) h' hu))))))
        (constant (F := Ideal) ⟨0, ![]⟩ .f32 0x00000000#32) h' hu) (ix2 p (0 : Fin 1))) = _
  rw [hostColCast_apply, Cert.HostRowSoftmax.hostRowSum_apply _ h' h hu p]
  refine congrArg (fun z => _ - Ideal.log z) (Finset.sum_congr rfl fun k _ => ?_)
  show Ideal.exp (subf s _ (ix2 p k)) = _
  rw [hsub k]

end Cert.RowLogSoftmax

end
-- ==== Proof.LibGuardedLogSoftmax.lean ====
/-
  Log-softmax along the last axis as the vector unit spells it when the row maximum is guarded: the lanes' maximum
  from −∞ is joined once more, by a maximum, with a splat −∞ before it is subtracted (as a log-softmax written with
  a stop-gradient on the maximum lowers inside a kernel). On the extended reals the maximum with −∞ is the other
  operand, so the guarded maximum of row p is still the row's greatest entry, and the whole expression — the guarded
  maximum subtracted, the exponential, the lanes' sum, its logarithm on the reduced column, broadcast back and
  subtracted — reads at (p, q) as the log-softmax of row p at q. Any sizes.
-/
import Idealize.ShloMosaic.PureOps.Ideal.Laws
import Idealize.ShloMosaic.Lib.ValueIdx
import Idealize.ShloMosaic.Lib.Pipeline.Value
import proofs.«171147_j55516747268431_1_alg».proof.Proof.LibRowSoftmax
import proofs.«171147_j55516747268431_1_alg».proof.Proof.LibRowLogSoftmax
import proofs.«171147_j55516747268431_1_alg».proof.Proof.LibColRowBroadcast

noncomputable section

open scoped BigOperators

namespace Cert.GuardedLogSoftmax

open Idealize.ShloMosaic Idealize.ShloMosaic.ValueIdx Cert.RowSoftmax Cert.RowLogSoftmax

/-- The lanes' maximum from −∞, joined with a splat −∞, at row p: the row's greatest entry. -/
theorem guardedMax_apply {a b : ℕ} (v : FVec Ideal ⟨2, ![a, b]⟩ .f32) (hr : Shape.Reduces ⟨2, ![a, b]⟩ [1] ⟨1, ![a]⟩)
    (hφ : FKind.Formats .f32) (hm : (0xFF800000#32 : BitVec 32) = FKind.maximumf.neutral .f32 hφ) (p : Fin a) :
    maximumf (broadcast ⟨1, ![a]⟩ (Scalar.ofBits (F := Ideal) .f32 0xFF800000#32))
        (multiReduction .maximumf [1] ⟨1, ![a]⟩ v 0xFF800000#32 hr hφ hm) (ix1 p)
      = rowMax (fun k : Fin b => v (ix2 p k)) := by
  rw [maximumf_apply, laneMax_apply]
  exact max_negInf _

/-- The whole guarded vector expression at (p, q): the log-softmax of row p at q. -/
theorem vector_apply {a b : ℕ} (v : FVec Ideal ⟨2, ![a, b]⟩ .f32) (hr : Shape.Reduces ⟨2, ![a, b]⟩ [1] ⟨1, ![a]⟩)
    (hφ hφ' : FKind.Formats .f32) (hm : (0xFF800000#32 : BitVec 32) = FKind.maximumf.neutral .f32 hφ)
    (hs : (0x00000000#32 : BitVec 32) = FKind.add.neutral .f32 hφ')
    (hc : (⟨1, ![a]⟩ : Shape).ShapeCasts ⟨2, ![a, 1]⟩) (hb : (⟨2, ![a, 1]⟩ : Shape).Broadcasts ⟨2, ![a, b]⟩)
    (p : Fin a) (q : Fin b) :
    subf (subf v (broadcastTo ⟨2, ![a, b]⟩ (shapeCast ⟨2, ![a, 1]⟩
            (maximumf (broadcast ⟨1, ![a]⟩ (Scalar.ofBits (F := Ideal) .f32 0xFF800000#32))
              (multiReduction .maximumf [1] ⟨1, ![a]⟩ v 0xFF800000#32 hr hφ hm)) hc) hb))
        (broadcastTo ⟨2, ![a, b]⟩ (log (shapeCast ⟨2, ![a, 1]⟩ (multiReduction .add [1] ⟨1, ![a]⟩
          (exp (subf v (broadcastTo ⟨2, ![a, b]⟩ (shapeCast ⟨2, ![a, 1]⟩
            (maximumf (broadcast ⟨1, ![a]⟩ (Scalar.ofBits (F := Ideal) .f32 0xFF800000#32))
              (multiReduction .maximumf [1] ⟨1, ![a]⟩ v 0xFF800000#32 hr hφ hm)) hc) hb)))
          0x00000000#32 hr hφ' hs) hc)) hb) (ix2 p q)
      = rowLogSoftmax (fun k => v (ix2 p k)) q := by
  have hsub : ∀ k : Fin b, subf v (broadcastTo ⟨2, ![a, b]⟩ (shapeCast ⟨2, ![a, 1]⟩
        (maximumf (broadcast ⟨1, ![a]⟩ (Scalar.ofBits (F := Ideal) .f32 0xFF800000#32))
          (multiReduction .maximumf [1] ⟨1, ![a]⟩ v 0xFF800000#32 hr hφ hm)) hc) hb) (ix2 p k)
      = v (ix2 p k) - rowMax (fun l : Fin b => v (ix2 p l)) := fun k => by
    rw [subf_apply, keepdimsCol_apply, guardedMax_apply]
  unfold rowLogSoftmax
  rw [subf_apply, hsub q, Cert.ColRowBroadcast.colBroadcast_apply]
  show _ - Ideal.log (shapeCast ⟨2, ![a, 1]⟩ (multiReduction .add [1] ⟨1, ![a]⟩
      (exp (subf v (broadcastTo ⟨2, ![a, b]⟩ (shapeCast ⟨2, ![a, 1]⟩
        (maximumf (broadcast ⟨1, ![a]⟩ (Scalar.ofBits (F := Ideal) .f32 0xFF800000#32))
          (multiReduction .maximumf [1] ⟨1, ![a]⟩ v 0xFF800000#32 hr hφ hm)) hc) hb)))
      0x00000000#32 hr hφ' hs) hc (ix2 p (0 : Fin 1))) = _
  rw [Cert.ColRowBroadcast.colCast_apply, laneSum_apply]
  refine congrArg (fun z => _ - Ideal.log z) (Finset.sum_congr rfl fun k _ => ?_)
  show Ideal.exp (subf v _ (ix2 p k)) = _
  rw [hsub k]

end Cert.GuardedLogSoftmax

end
-- ==== Proof.Act5.lean ====
/-
  The bias-and-log-softmax region (number 5): a grid of 20 points, point t adding one row of 64 numbers to each of
  rows 5000·t … 5000·t + 4999 of a 100000 × 64 array and taking the log-softmax of every row, the row maximum
  guarded by a further maximum with −∞.
  The log-softmax of a row depends on that row only, so block t of the result is rows 5000·t … of the host's layer on the
  whole array (the row broadcast down and added, then the host's log-softmax of every row); the 20 blocks tile the
  100000 rows, so after the region the result array IS the host's layer of the two arrays the region found.
-/
import proofs.«171147_j55516747268431_1_alg».proof.Proof.Gen.KernelIdeal.Frame
import proofs.«171147_j55516747268431_1_alg».proof.Proof.LibBlockRows
import proofs.«171147_j55516747268431_1_alg».proof.Proof.LibRowBias
import proofs.«171147_j55516747268431_1_alg».proof.Proof.LibRowLogSoftmax
import proofs.«171147_j55516747268431_1_alg».proof.Proof.LibGuardedLogSoftmax
import Idealize.ShloMosaic.Lib.Pipeline.Value
import Idealize.ShloMosaic.Lib.ValueIdx

noncomputable section

namespace Cert.KernelIdeal.Act5

open Cert.KernelIdeal Cert.KernelIdeal.Gen Idealize.ShloMosaic Idealize.ShloMosaic.TcCoe Idealize.SL.Sem
open Idealize.ShloMosaic.ValueIdx Idealize.ShloMosaic.Pipeline Cert.BlockRows

variable (V : (c : Dev nD) → (b : Ref sig .tc) → Buf (Elt Ideal) ((c : Thread nD τ).loc b))
variable (h2 : (⟨2, ![1, 64]⟩ : Shape).BroadcastsInDim ⟨2, ![100000, 64]⟩ ![0, 1])
  (h' : Shape.ReducesTo ⟨2, ![100000, 64]⟩ [1] ⟨1, ![100000]⟩) (hu : 0 < (⟨0, ![]⟩ : Shape).numel)
  (b0 : (⟨0, ![]⟩ : Shape).BroadcastsInDim ⟨1, ![100000]⟩ ![])
  (b1 : (⟨1, ![100000]⟩ : Shape).BroadcastsInDim ⟨2, ![100000, 1]⟩ ![0])
  (b2 : (⟨2, ![100000, 1]⟩ : Shape).BroadcastsInDim ⟨2, ![100000, 64]⟩ ![0, 1])

/-- The row added to every row of the whole array. -/
def logits (A : FVec Ideal S100000x64 .f32) (B : FVec Ideal S1x64 .f32) : FVec Ideal S100000x64 .f32 :=
  addf A (broadcastInDim ⟨2, ![100000, 64]⟩ ![0, 1] h2 B)

/-- The host's log-softmax of every row of a whole array: the row maximum (a max-reduce from −∞, joined with a
    broadcast −∞) laid back over the row and subtracted, then the logarithm of the row's sum of exponentials laid
    back and subtracted. -/
def hostLogSoftmax (s : FVec Ideal S100000x64 .f32) : FVec Ideal S100000x64 .f32 :=
  subf
    (subf s (broadcastInDim ⟨2, ![100000, 64]⟩ ![0, 1] b2 (broadcastInDim ⟨2, ![100000, 1]⟩ ![0] b1
      (maximumf (broadcastInDim ⟨1, ![100000]⟩ ![] b0 (constant (F := Ideal) ⟨0, ![]⟩ .f32 0xFF800000#32))
        (Host.reduce FloatOps.maximumf s (constant (F := Ideal) ⟨0, ![]⟩ .f32 0xFF800000#32) h' hu)))))
    (broadcastInDim ⟨2, ![100000, 64]⟩ ![0, 1] b2 (Host.log (broadcastInDim ⟨2, ![100000, 1]⟩ ![0] b1
      (Host.reduceAdd (Host.exp (subf s (broadcastInDim ⟨2, ![100000, 64]⟩ ![0, 1] b2 (broadcastInDim ⟨2, ![100000, 1]⟩ ![0] b1
        (maximumf (broadcastInDim ⟨1, ![100000]⟩ ![] b0 (constant (F := Ideal) ⟨0, ![]⟩ .f32 0xFF800000#32))
          (Host.reduce FloatOps.maximumf s (constant (F := Ideal) ⟨0, ![]⟩ .f32 0xFF800000#32) h' hu))))))
        (constant (F := Ideal) ⟨0, ![]⟩ .f32 0x00000000#32) h' hu))))

/-- The host's layer on the whole array. -/
def layer (A : FVec Ideal S100000x64 .f32) (B : FVec Ideal S1x64 .f32) : FVec Ideal S100000x64 .f32 :=
  hostLogSoftmax h' hu b0 b1 b2 (logits h2 A B)

theorem origin : (![0, 0] : Fin 2 → Nat) = fun _ => 0 := funext fun a => by fin_cases a <;> rfl

/-- The rows of the tall array that grid point t works on. -/
abbrev rowsAt (t : Fin cfg5.N) : Fin 5000 → Fin 100000 := blockRow 5000 20 100000 (by decide) ⟨t.val, t.isLt⟩

/-- The body's arithmetic on picked rows is the picked rows of the host's layer on the whole array. -/
theorem payload_rows (ρ : Fin 5000 → Fin 100000) (A : FVec Ideal S100000x64 .f32) (B : FVec Ideal S1x64 .f32) :
    k5_pay1 (F := Ideal) (rowsOf ρ A) B = rowsOf ρ (layer h2 h' hu b0 b1 b2 A B) := by
  funext j
  obtain ⟨p, q, rfl⟩ : ∃ (p : Fin 5000) (q : Fin 64), j = ix2 p q := ⟨j 0, j 1, eq_ix2 j⟩
  unfold k5_pay1 layer hostLogSoftmax
  rw [shapeCast_self, shapeCast_self, Cert.RowBias.biasRow_rows ρ _ h2 B, addf_rows, rowsOf_apply]
  refine (Cert.GuardedLogSoftmax.vector_apply (rowsOf ρ (logits h2 A B)) _ _ _ _ _ _ _ p q).trans ?_
  exact (Cert.RowLogSoftmax.host_apply (logits h2 A B) h' (by decide) hu b0 b1 b2 (ρ p) q).symm

/-- The printed index maps over the grid: the row blocks move with the point, the bias row stays. -/
theorem index_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The array operand's block at point t is the point's rows of its array. -/
theorem rows_block (c : Dev nD) (t : Fin cfg5.N) :
    iblk5 V c 0 t = rowsOf (rowsAt t) (V c main_v77) := by
  obtain ⟨e0, e1, -, -, -, -⟩ := index_facts t
  funext j
  show V c main_v77 (((cfg5.win 0).blk t).view.emb j) = V c main_v77 (ix2 (rowsAt t (j 0)) (j 1))
  refine congrArg (V c main_v77) (funext fun a => Fin.ext ?_)
  match a with
  | ⟨0, _⟩ => show win5_0.index t (0 : Fin 2) * 5000 + 1 * (j 0).val = 5000 * t.val + (j 0).val; rw [e0]; ring
  | ⟨1, _⟩ => show win5_0.index t (1 : Fin 2) * 64 + 1 * (j 1).val = (j 1).val; rw [e1]; ring

/-- The bias row's block at every point is the whole row. -/
theorem bias_block (c : Dev nD) (t : Fin cfg5.N) : iblk5 V c 1 t = V c main_v78 := by
  obtain ⟨-, -, e2, e3, -, -⟩ := index_facts t
  funext j
  show V c main_v78 (((cfg5.win 1).blk t).view.emb j) = V c main_v78 j
  refine congrArg (V c main_v78) (funext fun a => Fin.ext ?_)
  match a with
  | ⟨0, _⟩ => show win5_1.index t (0 : Fin 2) * 1 + 1 * (j 0).val = (j 0).val; rw [e2]; ring
  | ⟨1, _⟩ => show win5_1.index t (1 : Fin 2) * 64 + 1 * (j 1).val = (j 1).val; rw [e3]; ring

/-- Reading point t's block of a result-shaped array picks the point's rows. -/
theorem result_block (G : FVec Ideal S100000x64 .f32) (t : Fin cfg5.N) :
    ((cfg5.win 2).blk t).view.read (Elt Ideal) G = rowsOf (rowsAt t) G := by
  obtain ⟨-, -, -, -, e4, e5⟩ := index_facts t
  funext j
  show G (((cfg5.win 2).blk t).view.emb j) = G (ix2 (rowsAt t (j 0)) (j 1))
  refine congrArg G (funext fun a => Fin.ext ?_)
  match a with
  | ⟨0, _⟩ => show win5_2.index t (0 : Fin 2) * 5000 + 1 * (j 0).val = 5000 * t.val + (j 0).val; rw [e4]; ring
  | ⟨1, _⟩ => show win5_2.index t (1 : Fin 2) * 64 + 1 * (j 1).val = (j 1).val; rw [e5]; ring

/-- What point t writes back is its block of the host's layer on the whole array. -/
theorem flushed_eq (c : Dev nD) (t : Fin cfg5.N) :
    (dat5 V c).flushed 2 t
      = ((cfg5.win 2).blk t).view.read (Elt Ideal) (layer h2 h' hu b0 b1 b2 (V c main_v77) (V c main_v78)) := by
  show (cfg5.win 2).cut (grid5.coords t) ((dat5 V c).after 2 t) = _
  rw [after5_2, result_block]
  unfold out5_2
  rw [View.canon_unit_zero origin]
  simp only [View.ld_unit_zero (S := S5000x64) origin, View.ld_unit_zero (S := S1x64) origin]
  rw [rows_block, bias_block]
  exact payload_rows h2 h' hu b0 b1 b2 _ _ _

/-- An index is in point t's block iff its row is among the point's 5000 rows. -/
theorem mem_block (t : Fin cfg5.N) (i : S100000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v79).slice (win5_2.rect t)).set ↔ _
  rw [View.set_slice_whole, Rect.mem_set_unit]
  exact Iff.rfl

/-- Every row lies in the block of the point numbered row / 5000. -/
theorem covered (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  let t : Fin cfg5.N := ⟨(i 0).val / 5000, by show (i 0).val / 5000 < 20; omega⟩
  obtain ⟨-, -, -, -, e4, e5⟩ := index_facts t
  refine ⟨t, flush5_2 t, ?_⟩
  rw [mem_block]
  intro a
  match a with
  | ⟨0, _⟩ =>
    show win5_2.index t (0 : Fin 2) * 5000 ≤ (i 0).val ∧ (i 0).val < win5_2.index t (0 : Fin 2) * 5000 + 5000
    rw [e4]; show (i 0).val / 5000 * 5000 ≤ (i 0).val ∧ (i 0).val < (i 0).val / 5000 * 5000 + 5000; omega
  | ⟨1, _⟩ =>
    show win5_2.index t (1 : Fin 2) * 64 ≤ (i 1).val ∧ (i 1).val < win5_2.index t (1 : Fin 2) * 64 + 64
    rw [e5]; omega

/-- THE RESULT ARRAY after the region: the host's layer of the two arrays the region found. -/
theorem final (c : Dev nD) :
    (dat5 V c).arrAt 2 cfg5.N = layer h2 h' hu b0 b1 b2 (V c main_v77) (V c main_v78) :=
  (dat5 V c).arrAt_eq_of_cover 2 (layer h2 h' hu b0 b1 b2 (V c main_v77) (V c main_v78)) (fun t _ => flushed_eq V h2 h' hu b0 b1 b2 c t) covered

end Cert.KernelIdeal.Act5

end
-- ==== Proof.ReadsR.lean ====
/-
  The reference's six short stretches read at their result buffers: a dense product is the host's plain product of
  the two arrays the stretch found, and a bias stretch is the host's layer (the bias vector laid as a row and down
  the rows, the sum, then the maximum with zero or the log-softmax of every row) of the aggregated array and the
  bias vector it found — the very whole-array functions the kernel's regions were shown to leave behind.
-/
import proofs.«171147_j55516747268431_1_alg».proof.Proof.Fold
import proofs.«171147_j55516747268431_1_alg».proof.Proof.Linear0
import proofs.«171147_j55516747268431_1_alg».proof.Proof.Linear2
import proofs.«171147_j55516747268431_1_alg».proof.Proof.Linear4
import proofs.«171147_j55516747268431_1_alg».proof.Proof.Act1
import proofs.«171147_j55516747268431_1_alg».proof.Proof.Act3
import proofs.«171147_j55516747268431_1_alg».proof.Proof.Act5

noncomputable section

namespace Cert.ReadsR

open Idealize.ShloMosaic Idealize.ShloMosaic.TcCoe Idealize.SL.Sem Idealize.ShloMosaic.StableHlo Cert.Fold

/-- Lay a stretch of the reference out as its literal list of operations. -/
local macro "stretch" : tactic => `(tactic| simp only [Cert.Fold.prep, Cert.Fold.dense1, Cert.Fold.agg1, Cert.Fold.act1, Cert.Fold.dense2, Cert.Fold.agg2, Cert.Fold.act2,
    Cert.Fold.dense3, Cert.Fold.agg3, Cert.Fold.act3, Cert.Fold.t0, Cert.Fold.t1, Cert.Fold.t2, Cert.Fold.t3, Cert.Fold.t4, Cert.Fold.t5,
    Cert.Fold.t6, Cert.Fold.t7, Cert.Fold.t8, Cert.ReferenceIdeal.ValueP.ops, List.take_succ_cons, List.take_zero, List.drop_succ_cons, List.drop_zero])

/-- Contents carried to a typed reference's buffer type and back are the contents. -/
theorem ofBuf_toBuf {sig : RefSig} {T : BufTy} {Val : EltTy → Type} (x : TRef sig T) (v : T.Contents Val) :
    x.ofBuf (x.toBuf v) = v := by
  obtain ⟨r, h, _, _⟩ := x
  subst h
  rfl

theorem dense1_read (V : RV) :
    after dense1 V (Proc.devRef .tc Cert.ReferenceIdeal.main_v32) = Cert.KernelIdeal.Lin0.product (V (Proc.devRef .tc Cert.ReferenceIdeal.main_arg0)) (V (Proc.devRef .tc Cert.ReferenceIdeal.main_arg3)) := by
  stretch
  after_results
  rfl

theorem dense2_read (V : RV) :
    after dense2 V (Proc.devRef .tc Cert.ReferenceIdeal.main_v50) = Cert.KernelIdeal.Lin2.product (V (Proc.devRef .tc Cert.ReferenceIdeal.main_v49)) (V (Proc.devRef .tc Cert.ReferenceIdeal.main_arg5)) := by
  stretch
  after_results
  rfl

theorem dense3_read (V : RV) :
    after dense3 V (Proc.devRef .tc Cert.ReferenceIdeal.main_v68) = Cert.KernelIdeal.Lin4.product (V (Proc.devRef .tc Cert.ReferenceIdeal.main_v67)) (V (Proc.devRef .tc Cert.ReferenceIdeal.main_arg7)) := by
  stretch
  after_results
  rfl

theorem act1_read (V : RV) :
    after act1 V (Proc.devRef .tc Cert.ReferenceIdeal.main_v49)
      = Cert.KernelIdeal.Act1.layer Cert.ReferenceIdeal.Gen.bcast_S1x128_S100000x128_0_1 Cert.ReferenceIdeal.Gen.bcast_S_S100000x128 (V (Proc.devRef .tc Cert.ReferenceIdeal.main_v45))
          (broadcastInDim Cert.ReferenceIdeal.S1x128 ![1] Cert.ReferenceIdeal.Gen.bcast_S128_S1x128_1 (V (Proc.devRef .tc Cert.ReferenceIdeal.main_arg4))) := by
  stretch
  after_results
  rfl

theorem act2_read (V : RV) :
    after act2 V (Proc.devRef .tc Cert.ReferenceIdeal.main_v67)
      = Cert.KernelIdeal.Act3.layer Cert.ReferenceIdeal.Gen.bcast_S1x128_S100000x128_0_1 Cert.ReferenceIdeal.Gen.bcast_S_S100000x128 (V (Proc.devRef .tc Cert.ReferenceIdeal.main_v63))
          (broadcastInDim Cert.ReferenceIdeal.S1x128 ![1] Cert.ReferenceIdeal.Gen.bcast_S128_S1x128_1 (V (Proc.devRef .tc Cert.ReferenceIdeal.main_arg6))) := by
  stretch
  after_results
  rfl

theorem act3_read (V : RV) :
    after act3 V (Proc.devRef .tc Cert.ReferenceIdeal.main_v85)
      = Cert.KernelIdeal.Act5.layer Cert.ReferenceIdeal.Gen.bcast_S1x64_S100000x64_0_1 Cert.ReferenceIdeal.Gen.reducesTo_S100000x64_S100000_d1 Cert.ReferenceIdeal.Gen.h_S_
          Cert.ReferenceIdeal.Gen.bcast_S_S100000 Cert.ReferenceIdeal.Gen.bcast_S100000_S100000x1_0 Cert.ReferenceIdeal.Gen.bcast_S100000x1_S100000x64_0_1 (V (Proc.devRef .tc Cert.ReferenceIdeal.main_v81))
          (broadcastInDim Cert.ReferenceIdeal.S1x64 ![1] Cert.ReferenceIdeal.Gen.bcast_S64_S1x64_1 (V (Proc.devRef .tc Cert.ReferenceIdeal.main_arg8))) := by
  stretch
  after_results
  simp only [ofBuf_toBuf]
  rfl

end Cert.ReadsR

end
-- ==== Proof.Lockstep.lean ====
/-
  The two programs in lockstep. The kernel's twelve segments and the reference's ten stretches pair off: the edge
  weights' normalisation, then per layer a dense product (a grid region against one dot_general), the aggregation
  (the same host operations on both sides) and the bias with its activation (a grid region against the host's
  broadcasts, sum and maximum or log-softmax). At every boundary the two folds agree on the eight long-lived buffers
  and on the layer's current array: a region leaves the host's whole-array function of the arrays it found (the region
  modules), the reference's stretch is that function of what it found (the reads), and a stretch of shared host
  operations maps agreeing inputs to agreeing outputs. At the last boundary the kernel's result array is the
  reference's result buffer.
-/
import proofs.«171147_j55516747268431_1_alg».proof.Proof.Fold
import proofs.«171147_j55516747268431_1_alg».proof.Proof.KeepsR
import proofs.«171147_j55516747268431_1_alg».proof.Proof.KeepsK
import proofs.«171147_j55516747268431_1_alg».proof.Proof.Agg
import proofs.«171147_j55516747268431_1_alg».proof.Proof.Prep
import proofs.«171147_j55516747268431_1_alg».proof.Proof.ReadsR
import proofs.«171147_j55516747268431_1_alg».proof.Proof.Linear0
import proofs.«171147_j55516747268431_1_alg».proof.Proof.Linear2
import proofs.«171147_j55516747268431_1_alg».proof.Proof.Linear4
import proofs.«171147_j55516747268431_1_alg».proof.Proof.Act1
import proofs.«171147_j55516747268431_1_alg».proof.Proof.Act3
import proofs.«171147_j55516747268431_1_alg».proof.Proof.Act5
import proofs.«171147_j55516747268431_1_alg».proof.Proof.LibBlockRows

noncomputable section

namespace Cert.Lockstep

open Cert.KernelIdeal Cert.KernelIdeal.Gen
open Idealize.ShloMosaic Idealize.ShloMosaic.TcCoe Idealize.SL.Sem Idealize.ShloMosaic.StableHlo Cert.Fold

variable (m : (ℓ : Loc nD τ sig) → Buf (Elt Ideal) ℓ) (ρ : Dev nD → PrngReg) (c : Dev nD) (V' : RV)

/-! ## The reference's boundaries -/

abbrev U1 : RV := after prep V'
abbrev U2 : RV := after dense1 (U1 V')
abbrev U3 : RV := after agg1 (U2 V')
abbrev U4 : RV := after act1 (U3 V')
abbrev U5 : RV := after dense2 (U4 V')
abbrev U6 : RV := after agg2 (U5 V')
abbrev U7 : RV := after act2 (U6 V')
abbrev U8 : RV := after dense3 (U7 V')
abbrev U9 : RV := after agg3 (U8 V')
abbrev U10 : RV := after act3 (U9 V')

/-! ## The kernel's regions leave the long-lived buffers alone -/

/-- region0 writes its result array only: the long-lived buffers are as it found them. -/
theorem region0_kept : KeptK (W3 m ρ c) (W4 m ρ c) :=
  ⟨W4_of_ne m ρ c main_v5 (by decide), W4_of_ne m ρ c main_v6 (by decide), W4_of_ne m ρ c main_v31 (by decide),
   W4_of_ne m ρ c main_arg4 (by decide), W4_of_ne m ρ c main_arg5 (by decide), W4_of_ne m ρ c main_arg6 (by decide),
   W4_of_ne m ρ c main_arg7 (by decide), W4_of_ne m ρ c main_arg8 (by decide)⟩

/-- region1 writes its result array only: the long-lived buffers are as it found them. -/
theorem region1_kept : KeptK (W5 m ρ c) (W6 m ρ c) :=
  ⟨W6_of_ne m ρ c main_v5 (by decide), W6_of_ne m ρ c main_v6 (by decide), W6_of_ne m ρ c main_v31 (by decide),
   W6_of_ne m ρ c main_arg4 (by decide), W6_of_ne m ρ c main_arg5 (by decide), W6_of_ne m ρ c main_arg6 (by decide),
   W6_of_ne m ρ c main_arg7 (by decide), W6_of_ne m ρ c main_arg8 (by decide)⟩

/-- region2 writes its result array only (the second layer's table is one of its inputs, left as entered): the long-lived
    buffers are as it found them. -/
theorem region2_kept : KeptK (W6 m ρ c) (W7 m ρ c) :=
  ⟨W7_of_ne m ρ c main_v5 (by decide), W7_of_ne m ρ c main_v6 (by decide), W7_of_ne m ρ c main_v31 (by decide),
   W7_of_ne m ρ c main_arg4 (by decide), (W7_arr m ρ c 1).trans (((dat2 (V6 m ρ) c).arrAt_in 1 rfl _).trans (A_eq2 (V6 m ρ) c 1)), W7_of_ne m ρ c main_arg6 (by decide),
   W7_of_ne m ρ c main_arg7 (by decide), W7_of_ne m ρ c main_arg8 (by decide)⟩

/-- region3 writes its result array only: the long-lived buffers are as it found them. -/
theorem region3_kept : KeptK (W8 m ρ c) (W9 m ρ c) :=
  ⟨W9_of_ne m ρ c main_v5 (by decide), W9_of_ne m ρ c main_v6 (by decide), W9_of_ne m ρ c main_v31 (by decide),
   W9_of_ne m ρ c main_arg4 (by decide), W9_of_ne m ρ c main_arg5 (by decide), W9_of_ne m ρ c main_arg6 (by decide),
   W9_of_ne m ρ c main_arg7 (by decide), W9_of_ne m ρ c main_arg8 (by decide)⟩

/-- region4 writes its result array only (the third layer's table is one of its inputs, left as entered): the long-lived
    buffers are as it found them. -/
theorem region4_kept : KeptK (W9 m ρ c) (W10 m ρ c) :=
  ⟨W10_of_ne m ρ c main_v5 (by decide), W10_of_ne m ρ c main_v6 (by decide), W10_of_ne m ρ c main_v31 (by decide),
   W10_of_ne m ρ c main_arg4 (by decide), W10_of_ne m ρ c main_arg5 (by decide), W10_of_ne m ρ c main_arg6 (by decide),
   (W10_arr m ρ c 1).trans (((dat4 (V9 m ρ) c).arrAt_in 1 rfl _).trans (A_eq4 (V9 m ρ) c 1)), W10_of_ne m ρ c main_arg8 (by decide)⟩

/-- The launch contents agree on the nine arguments. -/
structure Args (V : KV) (W : RV) : Prop where
  x : V (Proc.devRef .tc Cert.KernelIdeal.main_arg0) = W (Proc.devRef .tc Cert.ReferenceIdeal.main_arg0)
  e : V (Proc.devRef .tc Cert.KernelIdeal.main_arg1) = W (Proc.devRef .tc Cert.ReferenceIdeal.main_arg1)
  ew : V (Proc.devRef .tc Cert.KernelIdeal.main_arg2) = W (Proc.devRef .tc Cert.ReferenceIdeal.main_arg2)
  w1 : V (Proc.devRef .tc Cert.KernelIdeal.main_arg3) = W (Proc.devRef .tc Cert.ReferenceIdeal.main_arg3)
  b1 : V (Proc.devRef .tc Cert.KernelIdeal.main_arg4) = W (Proc.devRef .tc Cert.ReferenceIdeal.main_arg4)
  w2 : V (Proc.devRef .tc Cert.KernelIdeal.main_arg5) = W (Proc.devRef .tc Cert.ReferenceIdeal.main_arg5)
  b2 : V (Proc.devRef .tc Cert.KernelIdeal.main_arg6) = W (Proc.devRef .tc Cert.ReferenceIdeal.main_arg6)
  w3 : V (Proc.devRef .tc Cert.KernelIdeal.main_arg7) = W (Proc.devRef .tc Cert.ReferenceIdeal.main_arg7)
  b3 : V (Proc.devRef .tc Cert.KernelIdeal.main_arg8) = W (Proc.devRef .tc Cert.ReferenceIdeal.main_arg8)

/-- THE RESULT: from launch contents that agree on the arguments, the kernel's result array after its last region is
    what the reference's fold leaves in its result buffer. -/
theorem result_eq (ha : Args (W0 m ρ c) V') :
    W12 m ρ c (Proc.devRef .tc Cert.KernelIdeal.main_v79) = after t0 V' (Proc.devRef .tc Cert.ReferenceIdeal.main_v85) := by
  -- after the normalisation
  have s3 : Same (W3 m ρ c) (U1 V') := Cert.Prep.prep_same (W0 m ρ c) V' ha.e ha.ew ha.b1 ha.w2 ha.b2 ha.w3 ha.b3
  have x3 : W3 m ρ c (Proc.devRef .tc Cert.KernelIdeal.main_arg0) = U1 V' (Proc.devRef .tc Cert.ReferenceIdeal.main_arg0) :=
    (Cert.Prep.prepK_x (W0 m ρ c)).trans (ha.x.trans (Cert.Prep.prepR_x V').symm)
  have t3 : W3 m ρ c (Proc.devRef .tc Cert.KernelIdeal.main_arg3) = U1 V' (Proc.devRef .tc Cert.ReferenceIdeal.main_arg3) :=
    (Cert.Prep.prepK_w (W0 m ρ c)).trans (ha.w1.trans (Cert.Prep.prepR_w V').symm)
  -- layer 1: the dense product
  have f4 : W4 m ρ c (Proc.devRef .tc Cert.KernelIdeal.main_v32) = U2 V' (Proc.devRef .tc Cert.ReferenceIdeal.main_v32) := by
    refine (W4_arr m ρ c 2).trans ((Lin0.final (V3 m ρ) c).trans ?_)
    show Lin0.product (W3 m ρ c (Proc.devRef .tc Cert.KernelIdeal.main_arg0)) (W3 m ρ c (Proc.devRef .tc Cert.KernelIdeal.main_arg3)) = _
    rw [x3, t3]
    exact (Cert.ReadsR.dense1_read (U1 V')).symm
  have s4 : Same (W4 m ρ c) (U2 V') := s3.step (region0_kept m ρ c) (Cert.KeepsR.dense1_kept (U1 V'))
  -- layer 1: the aggregation
  have g5 : W5 m ρ c (Proc.devRef .tc Cert.KernelIdeal.main_v45) = U3 V' (Proc.devRef .tc Cert.ReferenceIdeal.main_v45) := Cert.Agg.agg1_eq (W4 m ρ c) (U2 V') f4 s4
  have s5 : Same (W5 m ρ c) (U3 V') := s4.step (Cert.KeepsK.host1_kept (W4 m ρ c)) (Cert.KeepsR.agg1_kept (U2 V'))
  have r5 : W5 m ρ c (Proc.devRef .tc Cert.KernelIdeal.main_v46)
      = broadcastInDim Cert.ReferenceIdeal.S1x128 ![1] Cert.ReferenceIdeal.Gen.bcast_S128_S1x128_1 (U3 V' (Proc.devRef .tc Cert.ReferenceIdeal.main_arg4)) := by
    refine (Cert.Agg.bias1_read (W4 m ρ c)).trans ?_
    rw [s4.b1, ← (Cert.KeepsR.agg1_kept (U2 V')).b1]
    exact Cert.BlockRows.reshape_row _ _ _
  -- layer 1: the bias and the maximum with zero
  have f6 : W6 m ρ c (Proc.devRef .tc Cert.KernelIdeal.main_v47) = U4 V' (Proc.devRef .tc Cert.ReferenceIdeal.main_v49) := by
    refine (W6_arr m ρ c 2).trans ((Act1.final (V5 m ρ) Cert.ReferenceIdeal.Gen.bcast_S1x128_S100000x128_0_1 Cert.ReferenceIdeal.Gen.bcast_S_S100000x128 c).trans ?_)
    show Act1.layer _ _ (W5 m ρ c (Proc.devRef .tc Cert.KernelIdeal.main_v45)) (W5 m ρ c (Proc.devRef .tc Cert.KernelIdeal.main_v46)) = _
    rw [g5, r5]
    exact (Cert.ReadsR.act1_read (U3 V')).symm
  have s6 : Same (W6 m ρ c) (U4 V') := s5.step (region1_kept m ρ c) (Cert.KeepsR.act1_kept (U3 V'))
  -- layer 2: the dense product
  have f7 : W7 m ρ c (Proc.devRef .tc Cert.KernelIdeal.main_v48) = U5 V' (Proc.devRef .tc Cert.ReferenceIdeal.main_v50) := by
    refine (W7_arr m ρ c 2).trans ((Lin2.final (V6 m ρ) c).trans ?_)
    show Lin2.product (W6 m ρ c (Proc.devRef .tc Cert.KernelIdeal.main_v47)) (W6 m ρ c (Proc.devRef .tc Cert.KernelIdeal.main_arg5)) = _
    rw [f6, s6.w2]
    exact (Cert.ReadsR.dense2_read (U4 V')).symm
  have s7 : Same (W7 m ρ c) (U5 V') := s6.step (region2_kept m ρ c) (Cert.KeepsR.dense2_kept (U4 V'))
  -- layer 2: the aggregation
  have g8 : W8 m ρ c (Proc.devRef .tc Cert.KernelIdeal.main_v61) = U6 V' (Proc.devRef .tc Cert.ReferenceIdeal.main_v63) := Cert.Agg.agg2_eq (W7 m ρ c) (U5 V') f7 s7
  have s8 : Same (W8 m ρ c) (U6 V') := s7.step (Cert.KeepsK.host3_kept (W7 m ρ c)) (Cert.KeepsR.agg2_kept (U5 V'))
  have r8 : W8 m ρ c (Proc.devRef .tc Cert.KernelIdeal.main_v62)
      = broadcastInDim Cert.ReferenceIdeal.S1x128 ![1] Cert.ReferenceIdeal.Gen.bcast_S128_S1x128_1 (U6 V' (Proc.devRef .tc Cert.ReferenceIdeal.main_arg6)) := by
    refine (Cert.Agg.bias2_read (W7 m ρ c)).trans ?_
    rw [s7.b2, ← (Cert.KeepsR.agg2_kept (U5 V')).b2]
    exact Cert.BlockRows.reshape_row _ _ _
  -- layer 2: the bias and the maximum with zero
  have f9 : W9 m ρ c (Proc.devRef .tc Cert.KernelIdeal.main_v63) = U7 V' (Proc.devRef .tc Cert.ReferenceIdeal.main_v67) := by
    refine (W9_arr m ρ c 2).trans ((Act3.final (V8 m ρ) Cert.ReferenceIdeal.Gen.bcast_S1x128_S100000x128_0_1 Cert.ReferenceIdeal.Gen.bcast_S_S100000x128 c).trans ?_)
    show Act3.layer _ _ (W8 m ρ c (Proc.devRef .tc Cert.KernelIdeal.main_v61)) (W8 m ρ c (Proc.devRef .tc Cert.KernelIdeal.main_v62)) = _
    rw [g8, r8]
    exact (Cert.ReadsR.act2_read (U6 V')).symm
  have s9 : Same (W9 m ρ c) (U7 V') := s8.step (region3_kept m ρ c) (Cert.KeepsR.act2_kept (U6 V'))
  -- layer 3: the dense product
  have f10 : W10 m ρ c (Proc.devRef .tc Cert.KernelIdeal.main_v64) = U8 V' (Proc.devRef .tc Cert.ReferenceIdeal.main_v68) := by
    refine (W10_arr m ρ c 2).trans ((Lin4.final (V9 m ρ) c).trans ?_)
    show Lin4.product (W9 m ρ c (Proc.devRef .tc Cert.KernelIdeal.main_v63)) (W9 m ρ c (Proc.devRef .tc Cert.KernelIdeal.main_arg7)) = _
    rw [f9, s9.w3]
    exact (Cert.ReadsR.dense3_read (U7 V')).symm
  have s10 : Same (W10 m ρ c) (U8 V') := s9.step (region4_kept m ρ c) (Cert.KeepsR.dense3_kept (U7 V'))
  -- layer 3: the aggregation
  have g11 : W11 m ρ c (Proc.devRef .tc Cert.KernelIdeal.main_v77) = U9 V' (Proc.devRef .tc Cert.ReferenceIdeal.main_v81) := Cert.Agg.agg3_eq (W10 m ρ c) (U8 V') f10 s10
  have r11 : W11 m ρ c (Proc.devRef .tc Cert.KernelIdeal.main_v78)
      = broadcastInDim Cert.ReferenceIdeal.S1x64 ![1] Cert.ReferenceIdeal.Gen.bcast_S64_S1x64_1 (U9 V' (Proc.devRef .tc Cert.ReferenceIdeal.main_arg8)) := by
    refine (Cert.Agg.bias3_read (W10 m ρ c)).trans ?_
    rw [s10.b3, ← (Cert.KeepsR.agg3_kept (U8 V')).b3]
    exact Cert.BlockRows.reshape_row _ _ _
  -- layer 3: the bias and the log-softmax
  have f12 : W12 m ρ c (Proc.devRef .tc Cert.KernelIdeal.main_v79) = U10 V' (Proc.devRef .tc Cert.ReferenceIdeal.main_v85) := by
    refine (W12_arr m ρ c 2).trans ((Act5.final (V11 m ρ) Cert.ReferenceIdeal.Gen.bcast_S1x64_S100000x64_0_1 Cert.ReferenceIdeal.Gen.reducesTo_S100000x64_S100000_d1
      Cert.ReferenceIdeal.Gen.h_S_ Cert.ReferenceIdeal.Gen.bcast_S_S100000 Cert.ReferenceIdeal.Gen.bcast_S100000_S100000x1_0 Cert.ReferenceIdeal.Gen.bcast_S100000x1_S100000x64_0_1 c).trans ?_)
    show Act5.layer _ _ _ _ _ _ (W11 m ρ c (Proc.devRef .tc Cert.KernelIdeal.main_v77)) (W11 m ρ c (Proc.devRef .tc Cert.KernelIdeal.main_v78)) = _
    rw [g11, r11]
    exact (Cert.ReadsR.act3_read (U9 V')).symm
  rw [after_ops V']
  exact f12

end Cert.Lockstep

end
-- ==== Proof.lean ====
/-
  A three-layer graph convolution network — per layer a dense projection X·W, a normalised aggregation over the edges
  with self-loops (gather, scale, scatter-add), a bias and an activation (the maximum with zero twice, then the
  log-softmax of every row) — written once with the six dense and bias stages as grid regions over 20 blocks of 5000
  rows, and once as plain host operations. On the extended reals both compute the same function of the nine arguments:
  every stage acts row by row, so a region's 20 blocks assemble into the host's whole-array stage, and everything
  between the regions is the same list of host operations in both programs. The three frames are the generated
  runs; there is no idealization rewrite to account for; the value claim is the lockstep of the two folds.
-/
import proofs.«171147_j55516747268431_1_alg».proof.Defs
import proofs.«171147_j55516747268431_1_alg».proof.Proof.Gen.Kernel
import proofs.«171147_j55516747268431_1_alg».proof.Proof.Gen.Kernel.Skeleton
import proofs.«171147_j55516747268431_1_alg».proof.Proof.Gen.Kernel.Launch
import proofs.«171147_j55516747268431_1_alg».proof.Proof.Gen.Kernel.Points
import proofs.«171147_j55516747268431_1_alg».proof.Proof.Gen.Kernel.Frame
import proofs.«171147_j55516747268431_1_alg».proof.Proof.Gen.KernelIdeal
import proofs.«171147_j55516747268431_1_alg».proof.Proof.Gen.KernelIdeal.Skeleton
import proofs.«171147_j55516747268431_1_alg».proof.Proof.Gen.KernelIdeal.Launch
import proofs.«171147_j55516747268431_1_alg».proof.Proof.Gen.KernelIdeal.Points
import proofs.«171147_j55516747268431_1_alg».proof.Proof.Gen.KernelIdeal.Frame
import proofs.«171147_j55516747268431_1_alg».proof.Proof.Gen.ReferenceIdeal
import proofs.«171147_j55516747268431_1_alg».proof.Proof.Gen.Pre_finite_inputs
import proofs.«171147_j55516747268431_1_alg».proof.Proof.KernelRun
import proofs.«171147_j55516747268431_1_alg».proof.Proof.RefRun
import proofs.«171147_j55516747268431_1_alg».proof.Proof.RefFrame
import proofs.«171147_j55516747268431_1_alg».proof.Proof.Lockstep
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel runs and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs, and none of its operations writes an argument. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c =>
    ⟨(h c Cert.ReferenceIdeal.main_arg0).trans (Cert.RefFrame.kept_arg0 _),
     (h c Cert.ReferenceIdeal.main_arg1).trans (Cert.RefFrame.kept_arg1 _),
     (h c Cert.ReferenceIdeal.main_arg2).trans (Cert.RefFrame.kept_arg2 _),
     (h c Cert.ReferenceIdeal.main_arg3).trans (Cert.RefFrame.kept_arg3 _),
     (h c Cert.ReferenceIdeal.main_arg4).trans (Cert.RefFrame.kept_arg4 _),
     (h c Cert.ReferenceIdeal.main_arg5).trans (Cert.RefFrame.kept_arg5 _),
     (h c Cert.ReferenceIdeal.main_arg6).trans (Cert.RefFrame.kept_arg6 _),
     (h c Cert.ReferenceIdeal.main_arg7).trans (Cert.RefFrame.kept_arg7 _),
     (h c Cert.ReferenceIdeal.main_arg8).trans (Cert.RefFrame.kept_arg8 _)⟩)
    (Cert.ReferenceIdeal.ValueP.run (F := Ideal) m ρ)

/-- From memories that agree on the arguments the two idealized programs end with equal results: the kernel's result
    array after its last region is what the reference's fold leaves in its result buffer (the lockstep). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W12 m ρ c (Proc.devRef .tc Cert.KernelIdeal.main_v79),
    Cert.KernelIdeal.RunValue.run (F := Ideal) m ρ, ?_⟩
  refine (θ_run Cert.ReferenceIdeal.defs _ _).mono (fun _ h c => ⟨?_,
     (h c Cert.ReferenceIdeal.main_arg0).trans (Cert.RefFrame.kept_arg0 _),
     (h c Cert.ReferenceIdeal.main_arg1).trans (Cert.RefFrame.kept_arg1 _),
     (h c Cert.ReferenceIdeal.main_arg2).trans (Cert.RefFrame.kept_arg2 _),
     (h c Cert.ReferenceIdeal.main_arg3).trans (Cert.RefFrame.kept_arg3 _),
     (h c Cert.ReferenceIdeal.main_arg4).trans (Cert.RefFrame.kept_arg4 _),
     (h c Cert.ReferenceIdeal.main_arg5).trans (Cert.RefFrame.kept_arg5 _),
     (h c Cert.ReferenceIdeal.main_arg6).trans (Cert.RefFrame.kept_arg6 _),
     (h c Cert.ReferenceIdeal.main_arg7).trans (Cert.RefFrame.kept_arg7 _),
     (h c Cert.ReferenceIdeal.main_arg8).trans (Cert.RefFrame.kept_arg8 _)⟩)
    (Cert.ReferenceIdeal.ValueP.run (F := Ideal) m' ρ')
  refine (h c Cert.ReferenceIdeal.main_v85).trans ?_
  exact (Cert.Lockstep.result_eq m ρ c (launchContents m' c)
    ⟨(hagree c).1.symm, (hagree c).2.1.symm, (hagree c).2.2.1.symm, (hagree c).2.2.2.1.symm, (hagree c).2.2.2.2.1.symm, (hagree c).2.2.2.2.2.1.symm, (hagree c).2.2.2.2.2.2.1.symm, (hagree c).2.2.2.2.2.2.2.1.symm, (hagree c).2.2.2.2.2.2.2.2.symm⟩).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
